-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S256x8192 : Shape := ⟨2, ![256, 8192]⟩
abbrev S256x1 : Shape := ⟨2, ![256, 1]⟩
abbrev S256x1024 : Shape := ⟨2, ![256, 1024]⟩
abbrev S1x1024 : Shape := ⟨2, ![1, 1024]⟩
abbrev S256 : Shape := ⟨1, ![256]⟩
abbrev S_ : Shape := ⟨0, ![]⟩

abbrev nBuf : Space → Nat
  | .hbm => 9
  | .vmem => 13
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x1, .i32⟩
  | .local _ .vmem, ⟨3, _⟩ => ⟨S256x1, .i32⟩
  | .local _ .vmem, ⟨4, _⟩ => ⟨S1x8192, .i32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v49 : BitVec 32 := Scalar.muli arg11 c1024_i32
  v49
def k0_off1 (k0_t1 : Fin k0_t1_loop.trips) : Fin 2 → Nat :=
  let c0_42 : Index := 0#32
  let c0_i32 : BitVec 32 := 0#32
  let c1_i32 : BitVec 32 := 1#32
  let arg11 : BitVec 32 := Scf.iv c0_i32 c1_i32 k0_t1
  let c1024_i32 : BitVec 32 := 1024#32
  let v49 : BitVec 32 := Scalar.muli arg11 c1024_i32
  let v50 : BitVec 32 := v49
  let v51 : Index := Scalar.indexCast v50
  ![0, v51.toNat]
def k0_off2 (k0_t1 : Fin k0_t1_loop.trips) : Fin 2 → Nat :=
  let c0_43 : Index := 0#32
  let c0_i32 : BitVec 32 := 0#32
  let c1_i32 : BitVec 32 := 1#32
  let arg11 : BitVec 32 := Scf.iv c0_i32 c1_i32 k0_t1
  let c1024_i32 : BitVec 32 := 1024#32
  let v49 : BitVec 32 := Scalar.muli arg11 c1024_i32
  let v50 : BitVec 32 := v49
  let v53 : Index := Scalar.indexCast v50
  ![0, v53.toNat]
@[reducible] def k0_t2_loop : Scf.Loop 32 :=
  let c0_i32_23 : BitVec 32 := 0#32
  let c8_i32_24 : BitVec 32 := 8#32
  let v29 : BitVec 32 := Scalar.addi c0_i32_23 c8_i32_24
  let c1_i32_25 : BitVec 32 := 1#32
  ⟨c0_i32_23, v29, c1_i32_25⟩
def k0_mult2 (k0_t2 : Fin k0_t2_loop.trips) : BitVec 32 :=
  let c0_i32_23 : BitVec 32 := 0#32
  let c1_i32_25 : BitVec 32 := 1#32
  let arg11 : BitVec 32 := Scf.iv c0_i32_23 c1_i32_25 k0_t2
  let c1024_i32 : BitVec 32 := 1024#32
  let v49 : BitVec 32 := Scalar.muli arg11 c1024_i32
  v49
def k0_off3 (k0_t2 : Fin k0_t2_loop.trips) : Fin 2 → Nat :=
  let c0_42 : Index := 0#32
  let c0_i32_23 : BitVec 32 := 0#32
  let c1_i32_25 : BitVec 32 := 1#32
  let arg11 : BitVec 32 := Scf.iv c0_i32_23 c1_i32_25 k0_t2
  let c1024_i32 : BitVec 32 := 1024#32
  let v49 : BitVec 32 := Scalar.muli arg11 c1024_i32
  let v50 : BitVec 32 := v49
  let v51 : Index := Scalar.indexCast v50
  ![0, v51.toNat]
def k0_off4 (k0_t2 : Fin k0_t2_loop.trips) : Fin 2 → Nat :=
  let c0_43 : Index := 0#32
  let c0_i32_23 : BitVec 32 := 0#32
  let c1_i32_25 : BitVec 32 := 1#32
  let arg11 : BitVec 32 := Scf.iv c0_i32_23 c1_i32_25 k0_t2
  let c1024_i32 : BitVec 32 := 1024#32
  let v49 : BitVec 32 := Scalar.muli arg11 c1024_i32
  let v50 : BitVec 32 := v49
  let v53 : Index := Scalar.indexCast v50
  ![0, v53.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192_S8192x1 : S8192.ShapeCasts S8192x1
  shapeCasts_S8192_S1x8192 : S8192.ShapeCasts S1x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  h_S256x1024 : 0 < S256x1024.numel
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  reduces_S256x1024_S256 : S256x1024.Reduces [1] S256
  shapeCasts_S256_S256x1 : S256.ShapeCasts S256x1
  natLt_1_32 : 1 < 32
  reducesTo_S8192x1_S_d0_1 : S8192x1.ReducesTo [0, 1] S_
  h_S_ : 0 < S_.numel
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S256x1024.size a ≤ S256x8192.size a
  k0_off2_inb : ∀ k0_t1 : Fin k0_t1_loop.trips, ∀ a, (k0_off2 k0_t1) a + S1x1024.size a ≤ S1x8192.size a
  k0_t2_ok : k0_t2_loop.OK
  k0_mult2_dvd : ∀ k0_t2 : Fin k0_t2_loop.trips, 1024 ∣ (k0_mult2 k0_t2).toNat
  k0_off3_inb : ∀ k0_t2 : Fin k0_t2_loop.trips, ∀ a, (k0_off3 k0_t2) a + S256x1024.size a ≤ S256x8192.size a
  k0_off4_inb : ∀ k0_t2 : Fin k0_t2_loop.trips, ∀ a, (k0_off4 k0_t2) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S8192x8192, .i1⟩
  | .hbm, ⟨11, _⟩ => ⟨S8192x8192, .i1⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x1, .f32⟩
  | .hbm, ⟨28, _⟩ => ⟨S8192x8192, .f32⟩
  | .hbm, ⟨29, _⟩ => ⟨S8192x8192, .i1⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .f32⟩
  | .hbm, ⟨35, _⟩ => ⟨S8192x8192, .f32⟩
  | .hbm, ⟨36, _⟩ => ⟨S8192x8192, .i1⟩
  | .hbm, ⟨37, _⟩ => ⟨S8192x8192, .i1⟩
  | .hbm, ⟨38, _⟩ => ⟨S_, .i1⟩
  | .hbm, ⟨39, _⟩ => ⟨S8192, .i1⟩
  | .hbm, ⟨40, _⟩ => ⟨S_, .i1⟩
  | .hbm, ⟨41, _⟩ => ⟨S8192, .i1⟩
  | .hbm, ⟨42, _⟩ => ⟨S8192, .i1⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_13 : Ref sig .tc := ⟨.hbm, 63, rfl⟩
abbrev main_call3_v0 : Ref sig .tc := ⟨.hbm, 64, rfl⟩
abbrev main_call3_v1 : Ref sig .tc := ⟨.hbm, 65, rfl⟩
abbrev main_v40 : Ref sig .tc := ⟨.hbm, 66, rfl⟩
abbrev main_cst_14 : Ref sig .tc := ⟨.hbm, 67, rfl⟩
abbrev main_v41 : Ref sig .tc := ⟨.hbm, 68, rfl⟩
abbrev main_v42 : Ref sig .tc := ⟨.hbm, 69, rfl⟩
abbrev main_cst_15 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_16 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_17 : Ref sig .tc := ⟨.hbm, 78, rfl⟩
abbrev main_call4_v0 : Ref sig .tc := ⟨.hbm, 79, rfl⟩
abbrev main_call4_v1 : Ref sig .tc := ⟨.hbm, 80, rfl⟩
abbrev main_v49 : Ref sig .tc := ⟨.hbm, 81, rfl⟩
abbrev main_cst_18 : Ref sig .tc := ⟨.hbm, 82, rfl⟩
abbrev main_v50 : Ref sig .tc := ⟨.hbm, 83, rfl⟩
abbrev main_cst_19 : Ref sig .tc := ⟨.hbm, 84, rfl⟩
abbrev main_v51 : Ref sig .tc := ⟨.hbm, 85, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.KLoop1.lean ====
/-
  The first pass over a row stripe, read as values.

  The stripe's 8192 columns are visited in 8 chunks of 1024. Two running columns are kept, one entry per row:
  the least similarity among the row's positives met so far (started at +inf) and the greatest among its negatives
  (started at -inf). Visiting chunk k replaces each by its minimum (maximum) with the chunk's own row minimum
  (maximum). Here the contents the pass leaves in its two buffers after n chunks are identified with the n-fold
  iteration of that one-chunk update, for any float instance.
-/
import proofs.«179485_j52381421142559_2_alg».proof.Proof.Gen.KernelIdeal.Frame
import Idealize.ShloMosaic.Lib.Pipeline.Value

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-- Columns 1024·k … 1024·k + 1023 of the stripe, as the first pass loads them. -/
abbrev simChunk1 (x0 : Vec F S256x8192 .f32) (k : Fin k0_t1_loop.trips) : Vec F S256x1024 .f32 :=
  View.ld x0 (Rect.unit (s := S256x8192) (k0_off1 k) S256x1024.size (Gen.k0_off1_inb k))

/-- The same columns of the row of column labels. -/
abbrev labChunk1 (x2 : Vec F S1x8192 .i32) (k : Fin k0_t1_loop.trips) : Vec F S1x1024 .i32 :=
  View.ld x2 (Rect.unit (s := S1x8192) (k0_off2 k) S1x1024.size (Gen.k0_off2_inb k))

/-- The running minimum column after n chunks. -/
def minAcc (v8 : Vec F S256x1 .i32) (x0 : Vec F S256x8192 .f32) (x2 : Vec F S1x8192 .i32) : ℕ → Vec F S256x1 .f32
  | 0 => k0_pay12
  | n + 1 => if h : n < k0_t1_loop.trips then
      k0_pay16 v8 (simChunk1 x0 ⟨n, h⟩) (labChunk1 x2 ⟨n, h⟩) (minAcc v8 x0 x2 n)
    else minAcc v8 x0 x2 n

/-- The running maximum column after n chunks. -/
def maxAcc (v8 : Vec F S256x1 .i32) (x0 : Vec F S256x8192 .f32) (x2 : Vec F S1x8192 .i32) : ℕ → Vec F S256x1 .f32
  | 0 => k0_pay13
  | n + 1 => if h : n < k0_t1_loop.trips then
      k0_pay17 v8 (simChunk1 x0 ⟨n, h⟩) (labChunk1 x2 ⟨n, h⟩) (maxAcc v8 x0 x2 n)
    else maxAcc v8 x0 x2 n

/-- One chunk's visit, whatever the two buffers hold and whatever was written before: the first buffer then reads as the
    one-chunk update of what it read. -/
theorem trip1_min (𝒱 : Variants) (c : Dev nD) (bd : Option 𝒱.V) (i : grid0.Coords) (arg1 : Memref sig .tc .vmem S256x8192 .f32) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (v8 : Vec F S256x1 .i32) (x0 : Vec F S256x8192 .f32) (x2 : Vec F S1x8192 .i32) (k : Fin k0_t1_loop.trips)
    (f5 : BufTy.Contents (Elt F) arg5.view.ty) (f6 : BufTy.Contents (Elt F) arg6.view.ty) (R : List (View.Piece (Elt F) S256x1 .f32)) :
    arg5.view.read (Elt F) (arg5.view.writes (Elt F) arg5.view.junk ((tripL_k0_t1 (F := F) 𝒱 c bd i arg1 harg1 arg2 harg2 arg3 harg3 arg4 harg4 arg5 harg5 arg6 harg6 arg7 harg7 arg8 harg8 arg9 harg9 arg10 harg10 v8 (harg1.unread x0) (harg3.unread x2) k f5 f6).1 ++ R))
      = k0_pay16 v8 (simChunk1 x0 k) (labChunk1 x2 k) (arg5.view.read (Elt F) f5) := by
  dsimp only [tripL_k0_t1]
  unfold trip_k0_t1
  dsimp only
  rw [List.singleton_append, View.read_writes_junk_eq_canon, View.canon_cons_unit_zero hz]
  simp only [View.readAt_eq_ld, harg1.read_unread, harg3.read_unread, View.ld_unit_zero (S := S256x1) hz]

/-- … and the second as the one-chunk update of what it read. -/
theorem trip1_max (𝒱 : Variants) (c : Dev nD) (bd : Option 𝒱.V) (i : grid0.Coords) (arg1 : Memref sig .tc .vmem S256x8192 .f32) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (v8 : Vec F S256x1 .i32) (x0 : Vec F S256x8192 .f32) (x2 : Vec F S1x8192 .i32) (k : Fin k0_t1_loop.trips)
    (f5 : BufTy.Contents (Elt F) arg5.view.ty) (f6 : BufTy.Contents (Elt F) arg6.view.ty) (R : List (View.Piece (Elt F) S256x1 .f32)) :
    arg6.view.read (Elt F) (arg6.view.writes (Elt F) arg6.view.junk ((tripL_k0_t1 (F := F) 𝒱 c bd i arg1 harg1 arg2 harg2 arg3 harg3 arg4 harg4 arg5 harg5 arg6 harg6 arg7 harg7 arg8 harg8 arg9 harg9 arg10 harg10 v8 (harg1.unread x0) (harg3.unread x2) k f5 f6).2 ++ R))
      = k0_pay17 v8 (simChunk1 x0 k) (labChunk1 x2 k) (arg6.view.read (Elt F) f6) := by
  dsimp only [tripL_k0_t1]
  unfold trip_k0_t1
  dsimp only
  rw [List.singleton_append, View.read_writes_junk_eq_canon, View.canon_cons_unit_zero hz]
  simp only [View.readAt_eq_ld, harg1.read_unread, harg3.read_unread, View.ld_unit_zero (S := S256x1) hz]

/-- After n chunks the two buffers read as the n-fold updates of their start columns. -/
theorem pass1_read (𝒱 : Variants) (c : Dev nD) (bd : Option 𝒱.V) (i : grid0.Coords) (arg1 : Memref sig .tc .vmem S256x8192 .f32) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (v8 : Vec F S256x1 .i32) (x0 : Vec F S256x8192 .f32) (x2 : Vec F S1x8192 .i32) :
    ∀ n, n ≤ k0_t1_loop.trips →
      arg5.view.read (Elt F) (arg5.view.writes (Elt F) arg5.view.junk ((pb_k0_t1 (F := F) 𝒱 c bd i arg1 harg1 arg2 harg2 arg3 harg3 arg4 harg4 arg5 harg5 arg6 harg6 arg7 harg7 arg8 harg8 arg9 harg9 arg10 harg10 v8 (harg1.unread x0) (harg3.unread x2) (arg5.view.writes (Elt F) arg5.view.junk [(⟨Rect.unit ![0, 0] S256x1.size Gen.inb_S256x1_S256x1_0_0, k0_pay12⟩ : View.Piece (Elt F) S256x1 .f32)]) (arg6.view.writes (Elt F) arg6.view.junk [(⟨Rect.unit ![0, 0] S256x1.size Gen.inb_S256x1_S256x1_0_0, k0_pay13⟩ : View.Piece (Elt F) S256x1 .f32)]) n).1 ++ [(⟨Rect.unit ![0, 0] S256x1.size Gen.inb_S256x1_S256x1_0_0, k0_pay12⟩ : View.Piece (Elt F) S256x1 .f32)])) = minAcc v8 x0 x2 n
      ∧ arg6.view.read (Elt F) (arg6.view.writes (Elt F) arg6.view.junk ((pb_k0_t1 (F := F) 𝒱 c bd i arg1 harg1 arg2 harg2 arg3 harg3 arg4 harg4 arg5 harg5 arg6 harg6 arg7 harg7 arg8 harg8 arg9 harg9 arg10 harg10 v8 (harg1.unread x0) (harg3.unread x2) (arg5.view.writes (Elt F) arg5.view.junk [(⟨Rect.unit ![0, 0] S256x1.size Gen.inb_S256x1_S256x1_0_0, k0_pay12⟩ : View.Piece (Elt F) S256x1 .f32)]) (arg6.view.writes (Elt F) arg6.view.junk [(⟨Rect.unit ![0, 0] S256x1.size Gen.inb_S256x1_S256x1_0_0, k0_pay13⟩ : View.Piece (Elt F) S256x1 .f32)]) n).2 ++ [(⟨Rect.unit ![0, 0] S256x1.size Gen.inb_S256x1_S256x1_0_0, k0_pay13⟩ : View.Piece (Elt F) S256x1 .f32)])) = maxAcc v8 x0 x2 n := by
  intro n
  induction n with
  | zero =>
    intro _
    refine ⟨?_, ?_⟩
    · show arg5.view.read (Elt F) (arg5.view.writes (Elt F) arg5.view.junk ([] ++ [(⟨Rect.unit ![0, 0] S256x1.size Gen.inb_S256x1_S256x1_0_0, k0_pay12⟩ : View.Piece (Elt F) S256x1 .f32)])) = k0_pay12
      rw [List.nil_append, View.read_writes_junk_eq_canon, View.canon_unit_zero hz]
    · show arg6.view.read (Elt F) (arg6.view.writes (Elt F) arg6.view.junk ([] ++ [(⟨Rect.unit ![0, 0] S256x1.size Gen.inb_S256x1_S256x1_0_0, k0_pay13⟩ : View.Piece (Elt F) S256x1 .f32)])) = k0_pay13
      rw [List.nil_append, View.read_writes_junk_eq_canon, View.canon_unit_zero hz]
  | succ n ih =>
    intro hn
    have hlt : n < k0_t1_loop.trips := hn
    obtain ⟨ih5, ih6⟩ := ih (Nat.le_of_lt hlt)
    have e5 : arg5.view.read (Elt F) (arg5.view.writes (Elt F) (arg5.view.writes (Elt F) arg5.view.junk [(⟨Rect.unit ![0, 0] S256x1.size Gen.inb_S256x1_S256x1_0_0, k0_pay12⟩ : View.Piece (Elt F) S256x1 .f32)]) (pb_k0_t1 (F := F) 𝒱 c bd i arg1 harg1 arg2 harg2 arg3 harg3 arg4 harg4 arg5 harg5 arg6 harg6 arg7 harg7 arg8 harg8 arg9 harg9 arg10 harg10 v8 (harg1.unread x0) (harg3.unread x2) (arg5.view.writes (Elt F) arg5.view.junk [(⟨Rect.unit ![0, 0] S256x1.size Gen.inb_S256x1_S256x1_0_0, k0_pay12⟩ : View.Piece (Elt F) S256x1 .f32)]) (arg6.view.writes (Elt F) arg6.view.junk [(⟨Rect.unit ![0, 0] S256x1.size Gen.inb_S256x1_S256x1_0_0, k0_pay13⟩ : View.Piece (Elt F) S256x1 .f32)]) n).1) = minAcc v8 x0 x2 n := by
      rw [← View.writes_append]; exact ih5
    have e6 : arg6.view.read (Elt F) (arg6.view.writes (Elt F) (arg6.view.writes (Elt F) arg6.view.junk [(⟨Rect.unit ![0, 0] S256x1.size Gen.inb_S256x1_S256x1_0_0, k0_pay13⟩ : View.Piece (Elt F) S256x1 .f32)]) (pb_k0_t1 (F := F) 𝒱 c bd i arg1 harg1 arg2 harg2 arg3 harg3 arg4 harg4 arg5 harg5 arg6 harg6 arg7 harg7 arg8 harg8 arg9 harg9 arg10 harg10 v8 (harg1.unread x0) (harg3.unread x2) (arg5.view.writes (Elt F) arg5.view.junk [(⟨Rect.unit ![0, 0] S256x1.size Gen.inb_S256x1_S256x1_0_0, k0_pay12⟩ : View.Piece (Elt F) S256x1 .f32)]) (arg6.view.writes (Elt F) arg6.view.junk [(⟨Rect.unit ![0, 0] S256x1.size Gen.inb_S256x1_S256x1_0_0, k0_pay13⟩ : View.Piece (Elt F) S256x1 .f32)]) n).2) = maxAcc v8 x0 x2 n := by
      rw [← View.writes_append]; exact ih6
    have hs := pb_k0_t1_succ (F := F) 𝒱 c bd i arg1 harg1 arg2 harg2 arg3 harg3 arg4 harg4 arg5 harg5 arg6 harg6 arg7 harg7 arg8 harg8 arg9 harg9 arg10 harg10 v8 (harg1.unread x0) (harg3.unread x2) (arg5.view.writes (Elt F) arg5.view.junk [(⟨Rect.unit ![0, 0] S256x1.size Gen.inb_S256x1_S256x1_0_0, k0_pay12⟩ : View.Piece (Elt F) S256x1 .f32)]) (arg6.view.writes (Elt F) arg6.view.junk [(⟨Rect.unit ![0, 0] S256x1.size Gen.inb_S256x1_S256x1_0_0, k0_pay13⟩ : View.Piece (Elt F) S256x1 .f32)]) ⟨n, hlt⟩
    have hm : minAcc v8 x0 x2 (n + 1) = k0_pay16 v8 (simChunk1 x0 ⟨n, hlt⟩) (labChunk1 x2 ⟨n, hlt⟩) (minAcc v8 x0 x2 n) := by
      rw [minAcc, dif_pos hlt]
    have hM : maxAcc v8 x0 x2 (n + 1) = k0_pay17 v8 (simChunk1 x0 ⟨n, hlt⟩) (labChunk1 x2 ⟨n, hlt⟩) (maxAcc v8 x0 x2 n) := by
      rw [maxAcc, dif_pos hlt]
    rw [show (n + 1) = (⟨n, hlt⟩ : Fin k0_t1_loop.trips).val + 1 from rfl, hs, hm, hM]
    dsimp only
    rw [List.append_assoc, List.append_assoc, trip1_min, trip1_max, e5, e6]
    exact ⟨rfl, rfl⟩

end Cert.KernelIdeal.Passes

end
-- ==== Proof.KLoop2.lean ====
/-
  The second pass over a row stripe, read as values.

  With the two thresholds of the first pass fixed, the stripe's columns are visited again in 8 chunks of 1024, and four
  running columns are kept, one entry per row: the sum of exp(-2(s - 1/2)) over the selected positives and of
  exp(40(s - 1/2)) over the selected negatives (both started at 0), and two marks, the greatest 0/1 indicator of a
  selected positive and of a selected negative met so far (both started at 0). Visiting chunk k adds the chunk's row
  sums, and takes the maximum with the chunk's greatest indicators. Here the contents the pass leaves in its four
  buffers after n chunks are identified with the n-fold iteration of that one-chunk update, for any float instance.
-/
import proofs.«179485_j52381421142559_2_alg».proof.Proof.Gen.KernelIdeal.Frame
import Idealize.ShloMosaic.Lib.Pipeline.Value

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl

/-- Columns 1024·k … 1024·k + 1023 of the stripe, as the second pass loads them. -/
abbrev simChunk2 (x0 : Vec F S256x8192 .f32) (k : Fin k0_t2_loop.trips) : Vec F S256x1024 .f32 :=
  View.ld x0 (Rect.unit (s := S256x8192) (k0_off3 k) S256x1024.size (Gen.k0_off3_inb k))

/-- The same columns of the row of column labels. -/
abbrev labChunk2 (x2 : Vec F S1x8192 .i32) (k : Fin k0_t2_loop.trips) : Vec F S1x1024 .i32 :=
  View.ld x2 (Rect.unit (s := S1x8192) (k0_off4 k) S1x1024.size (Gen.k0_off4_inb k))

/-- The running column of sums over the selected positives after n chunks. -/
def posAcc (v9 : IVec S256x1 32) (v27 : Vec F S256x1 .f32) (v28 : Vec F S256x1 .f32) (x0 : Vec F S256x8192 .f32) (x2 : Vec F S1x8192 .i32) : ℕ → Vec F S256x1 .f32
  | 0 => k0_pay18
  | n + 1 => if h : n < k0_t2_loop.trips then
      k0_pay1 (k0_pay9 v9 v28 (simChunk2 x0 ⟨n, h⟩) (labChunk2 x2 ⟨n, h⟩)) (posAcc v9 v27 v28 x0 x2 n)
    else posAcc v9 v27 v28 x0 x2 n

/-- The running column of sums over the selected negatives after n chunks. -/
def negAcc (v9 : IVec S256x1 32) (v27 : Vec F S256x1 .f32) (v28 : Vec F S256x1 .f32) (x0 : Vec F S256x8192 .f32) (x2 : Vec F S1x8192 .i32) : ℕ → Vec F S256x1 .f32
  | 0 => k0_pay19
  | n + 1 => if h : n < k0_t2_loop.trips then
      k0_pay2 (k0_pay10 v9 v27 (simChunk2 x0 ⟨n, h⟩) (labChunk2 x2 ⟨n, h⟩)) (negAcc v9 v27 v28 x0 x2 n)
    else negAcc v9 v27 v28 x0 x2 n

/-- The running column marking the rows that had a selected positive, after n chunks. -/
def hasPosAcc (v9 : IVec S256x1 32) (v27 : Vec F S256x1 .f32) (v28 : Vec F S256x1 .f32) (x0 : Vec F S256x8192 .f32) (x2 : Vec F S1x8192 .i32) : ℕ → Vec F S256x1 .f32
  | 0 => k0_pay20
  | n + 1 => if h : n < k0_t2_loop.trips then
      k0_pay3 (k0_pay11 v9 v28 (simChunk2 x0 ⟨n, h⟩) (labChunk2 x2 ⟨n, h⟩)) (hasPosAcc v9 v27 v28 x0 x2 n)
    else hasPosAcc v9 v27 v28 x0 x2 n

/-- The running column marking the rows that had a selected negative, after n chunks. -/
def hasNegAcc (v9 : IVec S256x1 32) (v27 : Vec F S256x1 .f32) (v28 : Vec F S256x1 .f32) (x0 : Vec F S256x8192 .f32) (x2 : Vec F S1x8192 .i32) : ℕ → Vec F S256x1 .f32
  | 0 => k0_pay21
  | n + 1 => if h : n < k0_t2_loop.trips then
      k0_pay4 (k0_pay7 v9 v27 (simChunk2 x0 ⟨n, h⟩) (labChunk2 x2 ⟨n, h⟩)) (hasNegAcc v9 v27 v28 x0 x2 n)
    else hasNegAcc v9 v27 v28 x0 x2 n

/-- One chunk's visit, whatever the four buffers hold and whatever was written before: buffer 1 of the four then
    reads as the one-chunk update of what it read. -/
theorem trip2_posAcc (𝒱 : Variants) (c : Dev nD) (bd : Option 𝒱.V) (i : grid0.Coords) (arg1 : Memref sig .tc .vmem S256x8192 .f32) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (v9 : IVec S256x1 32) (v27 : Vec F S256x1 .f32) (v28 : Vec F S256x1 .f32) (x0 : Vec F S256x8192 .f32) (x2 : Vec F S1x8192 .i32) (k : Fin k0_t2_loop.trips)
    (f7 : BufTy.Contents (Elt F) arg7.view.ty) (f8 : BufTy.Contents (Elt F) arg8.view.ty) (f9 : BufTy.Contents (Elt F) arg9.view.ty) (f10 : BufTy.Contents (Elt F) arg10.view.ty)
    (R : List (View.Piece (Elt F) S256x1 .f32)) :
    arg7.view.read (Elt F) (arg7.view.writes (Elt F) arg7.view.junk ((tripL_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) k f7 f8 f9 f10).1 ++ R))
      = k0_pay1 (k0_pay9 v9 v28 (simChunk2 x0 k) (labChunk2 x2 k)) (arg7.view.read (Elt F) f7) := by
  dsimp only [tripL_k0_t2]
  unfold trip_k0_t2
  dsimp only
  sl_unfold_words
  rw [List.singleton_append, View.read_writes_junk_eq_canon, View.canon_cons_unit_zero hz2]
  simp only [View.readAt_eq_ld, harg1.read_unread, harg3.read_unread, View.ld_unit_zero (S := S256x1) hz2]
  rfl

/-- One chunk's visit, whatever the four buffers hold and whatever was written before: buffer 2 of the four then
    reads as the one-chunk update of what it read. -/
theorem trip2_negAcc (𝒱 : Variants) (c : Dev nD) (bd : Option 𝒱.V) (i : grid0.Coords) (arg1 : Memref sig .tc .vmem S256x8192 .f32) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (v9 : IVec S256x1 32) (v27 : Vec F S256x1 .f32) (v28 : Vec F S256x1 .f32) (x0 : Vec F S256x8192 .f32) (x2 : Vec F S1x8192 .i32) (k : Fin k0_t2_loop.trips)
    (f7 : BufTy.Contents (Elt F) arg7.view.ty) (f8 : BufTy.Contents (Elt F) arg8.view.ty) (f9 : BufTy.Contents (Elt F) arg9.view.ty) (f10 : BufTy.Contents (Elt F) arg10.view.ty)
    (R : List (View.Piece (Elt F) S256x1 .f32)) :
    arg8.view.read (Elt F) (arg8.view.writes (Elt F) arg8.view.junk ((tripL_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) k f7 f8 f9 f10).2.1 ++ R))
      = k0_pay2 (k0_pay10 v9 v27 (simChunk2 x0 k) (labChunk2 x2 k)) (arg8.view.read (Elt F) f8) := by
  dsimp only [tripL_k0_t2]
  unfold trip_k0_t2
  dsimp only
  sl_unfold_words
  rw [List.singleton_append, View.read_writes_junk_eq_canon, View.canon_cons_unit_zero hz2]
  simp only [View.readAt_eq_ld, harg1.read_unread, harg3.read_unread, View.ld_unit_zero (S := S256x1) hz2]
  rfl

/-- One chunk's visit, whatever the four buffers hold and whatever was written before: buffer 3 of the four then
    reads as the one-chunk update of what it read. -/
theorem trip2_hasPosAcc (𝒱 : Variants) (c : Dev nD) (bd : Option 𝒱.V) (i : grid0.Coords) (arg1 : Memref sig .tc .vmem S256x8192 .f32) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (v9 : IVec S256x1 32) (v27 : Vec F S256x1 .f32) (v28 : Vec F S256x1 .f32) (x0 : Vec F S256x8192 .f32) (x2 : Vec F S1x8192 .i32) (k : Fin k0_t2_loop.trips)
    (f7 : BufTy.Contents (Elt F) arg7.view.ty) (f8 : BufTy.Contents (Elt F) arg8.view.ty) (f9 : BufTy.Contents (Elt F) arg9.view.ty) (f10 : BufTy.Contents (Elt F) arg10.view.ty)
    (R : List (View.Piece (Elt F) S256x1 .f32)) :
    arg9.view.read (Elt F) (arg9.view.writes (Elt F) arg9.view.junk ((tripL_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) k f7 f8 f9 f10).2.2.1 ++ R))
      = k0_pay3 (k0_pay11 v9 v28 (simChunk2 x0 k) (labChunk2 x2 k)) (arg9.view.read (Elt F) f9) := by
  dsimp only [tripL_k0_t2]
  unfold trip_k0_t2
  dsimp only
  sl_unfold_words
  rw [List.singleton_append, View.read_writes_junk_eq_canon, View.canon_cons_unit_zero hz2]
  simp only [View.readAt_eq_ld, harg1.read_unread, harg3.read_unread, View.ld_unit_zero (S := S256x1) hz2]
  rfl

/-- One chunk's visit, whatever the four buffers hold and whatever was written before: buffer 4 of the four then
    reads as the one-chunk update of what it read. -/
theorem trip2_hasNegAcc (𝒱 : Variants) (c : Dev nD) (bd : Option 𝒱.V) (i : grid0.Coords) (arg1 : Memref sig .tc .vmem S256x8192 .f32) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (v9 : IVec S256x1 32) (v27 : Vec F S256x1 .f32) (v28 : Vec F S256x1 .f32) (x0 : Vec F S256x8192 .f32) (x2 : Vec F S1x8192 .i32) (k : Fin k0_t2_loop.trips)
    (f7 : BufTy.Contents (Elt F) arg7.view.ty) (f8 : BufTy.Contents (Elt F) arg8.view.ty) (f9 : BufTy.Contents (Elt F) arg9.view.ty) (f10 : BufTy.Contents (Elt F) arg10.view.ty)
    (R : List (View.Piece (Elt F) S256x1 .f32)) :
    arg10.view.read (Elt F) (arg10.view.writes (Elt F) arg10.view.junk ((tripL_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) k f7 f8 f9 f10).2.2.2 ++ R))
      = k0_pay4 (k0_pay7 v9 v27 (simChunk2 x0 k) (labChunk2 x2 k)) (arg10.view.read (Elt F) f10) := by
  dsimp only [tripL_k0_t2]
  unfold trip_k0_t2
  dsimp only
  sl_unfold_words
  rw [List.singleton_append, View.read_writes_junk_eq_canon, View.canon_cons_unit_zero hz2]
  simp only [View.readAt_eq_ld, harg1.read_unread, harg3.read_unread, View.ld_unit_zero (S := S256x1) hz2]
  rfl

/-- After n chunks the four buffers read as the n-fold updates of their start columns. -/
theorem pass2_read (𝒱 : Variants) (c : Dev nD) (bd : Option 𝒱.V) (i : grid0.Coords) (arg1 : Memref sig .tc .vmem S256x8192 .f32) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (v9 : IVec S256x1 32) (v27 : Vec F S256x1 .f32) (v28 : Vec F S256x1 .f32) (x0 : Vec F S256x8192 .f32) (x2 : Vec F S1x8192 .i32) :
    ∀ n, n ≤ k0_t2_loop.trips →
      arg7.view.read (Elt F) (arg7.view.writes (Elt F) arg7.view.junk ((pb_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) (arg7.view.writes (Elt F) arg7.view.junk [(⟨Rect.unit ![0, 0] S256x1.size Gen.inb_S256x1_S256x1_0_0, k0_pay18⟩ : View.Piece (Elt F) S256x1 .f32)]) (arg8.view.writes (Elt F) arg8.view.junk [(⟨Rect.unit ![0, 0] S256x1.size Gen.inb_S256x1_S256x1_0_0, k0_pay19⟩ : View.Piece (Elt F) S256x1 .f32)]) (arg9.view.writes (Elt F) arg9.view.junk [(⟨Rect.unit ![0, 0] S256x1.size Gen.inb_S256x1_S256x1_0_0, k0_pay20⟩ : View.Piece (Elt F) S256x1 .f32)]) (arg10.view.writes (Elt F) arg10.view.junk [(⟨Rect.unit ![0, 0] S256x1.size Gen.inb_S256x1_S256x1_0_0, k0_pay21⟩ : View.Piece (Elt F) S256x1 .f32)]) n).1 ++ [(⟨Rect.unit ![0, 0] S256x1.size Gen.inb_S256x1_S256x1_0_0, k0_pay18⟩ : View.Piece (Elt F) S256x1 .f32)])) = posAcc v9 v27 v28 x0 x2 n
      ∧ arg8.view.read (Elt F) (arg8.view.writes (Elt F) arg8.view.junk ((pb_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) (arg7.view.writes (Elt F) arg7.view.junk [(⟨Rect.unit ![0, 0] S256x1.size Gen.inb_S256x1_S256x1_0_0, k0_pay18⟩ : View.Piece (Elt F) S256x1 .f32)]) (arg8.view.writes (Elt F) arg8.view.junk [(⟨Rect.unit ![0, 0] S256x1.size Gen.inb_S256x1_S256x1_0_0, k0_pay19⟩ : View.Piece (Elt F) S256x1 .f32)]) (arg9.view.writes (Elt F) arg9.view.junk [(⟨Rect.unit ![0, 0] S256x1.size Gen.inb_S256x1_S256x1_0_0, k0_pay20⟩ : View.Piece (Elt F) S256x1 .f32)]) (arg10.view.writes (Elt F) arg10.view.junk [(⟨Rect.unit ![0, 0] S256x1.size Gen.inb_S256x1_S256x1_0_0, k0_pay21⟩ : View.Piece (Elt F) S256x1 .f32)]) n).2.1 ++ [(⟨Rect.unit ![0, 0] S256x1.size Gen.inb_S256x1_S256x1_0_0, k0_pay19⟩ : View.Piece (Elt F) S256x1 .f32)])) = negAcc v9 v27 v28 x0 x2 n
      ∧ arg9.view.read (Elt F) (arg9.view.writes (Elt F) arg9.view.junk ((pb_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) (arg7.view.writes (Elt F) arg7.view.junk [(⟨Rect.unit ![0, 0] S256x1.size Gen.inb_S256x1_S256x1_0_0, k0_pay18⟩ : View.Piece (Elt F) S256x1 .f32)]) (arg8.view.writes (Elt F) arg8.view.junk [(⟨Rect.unit ![0, 0] S256x1.size Gen.inb_S256x1_S256x1_0_0, k0_pay19⟩ : View.Piece (Elt F) S256x1 .f32)]) (arg9.view.writes (Elt F) arg9.view.junk [(⟨Rect.unit ![0, 0] S256x1.size Gen.inb_S256x1_S256x1_0_0, k0_pay20⟩ : View.Piece (Elt F) S256x1 .f32)]) (arg10.view.writes (Elt F) arg10.view.junk [(⟨Rect.unit ![0, 0] S256x1.size Gen.inb_S256x1_S256x1_0_0, k0_pay21⟩ : View.Piece (Elt F) S256x1 .f32)]) n).2.2.1 ++ [(⟨Rect.unit ![0, 0] S256x1.size Gen.inb_S256x1_S256x1_0_0, k0_pay20⟩ : View.Piece (Elt F) S256x1 .f32)])) = hasPosAcc v9 v27 v28 x0 x2 n
      ∧ arg10.view.read (Elt F) (arg10.view.writes (Elt F) arg10.view.junk ((pb_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) (arg7.view.writes (Elt F) arg7.view.junk [(⟨Rect.unit ![0, 0] S256x1.size Gen.inb_S256x1_S256x1_0_0, k0_pay18⟩ : View.Piece (Elt F) S256x1 .f32)]) (arg8.view.writes (Elt F) arg8.view.junk [(⟨Rect.unit ![0, 0] S256x1.size Gen.inb_S256x1_S256x1_0_0, k0_pay19⟩ : View.Piece (Elt F) S256x1 .f32)]) (arg9.view.writes (Elt F) arg9.view.junk [(⟨Rect.unit ![0, 0] S256x1.size Gen.inb_S256x1_S256x1_0_0, k0_pay20⟩ : View.Piece (Elt F) S256x1 .f32)]) (arg10.view.writes (Elt F) arg10.view.junk [(⟨Rect.unit ![0, 0] S256x1.size Gen.inb_S256x1_S256x1_0_0, k0_pay21⟩ : View.Piece (Elt F) S256x1 .f32)]) n).2.2.2 ++ [(⟨Rect.unit ![0, 0] S256x1.size Gen.inb_S256x1_S256x1_0_0, k0_pay21⟩ : View.Piece (Elt F) S256x1 .f32)])) = hasNegAcc v9 v27 v28 x0 x2 n := by
  intro n
  induction n with
  | zero =>
    intro _
    refine ⟨?_, ?_, ?_, ?_⟩
    · show arg7.view.read (Elt F) (arg7.view.writes (Elt F) arg7.view.junk ([] ++ [(⟨Rect.unit ![0, 0] S256x1.size Gen.inb_S256x1_S256x1_0_0, k0_pay18⟩ : View.Piece (Elt F) S256x1 .f32)])) = k0_pay18
      rw [List.nil_append, View.read_writes_junk_eq_canon, View.canon_unit_zero hz2]
    · show arg8.view.read (Elt F) (arg8.view.writes (Elt F) arg8.view.junk ([] ++ [(⟨Rect.unit ![0, 0] S256x1.size Gen.inb_S256x1_S256x1_0_0, k0_pay19⟩ : View.Piece (Elt F) S256x1 .f32)])) = k0_pay19
      rw [List.nil_append, View.read_writes_junk_eq_canon, View.canon_unit_zero hz2]
    · show arg9.view.read (Elt F) (arg9.view.writes (Elt F) arg9.view.junk ([] ++ [(⟨Rect.unit ![0, 0] S256x1.size Gen.inb_S256x1_S256x1_0_0, k0_pay20⟩ : View.Piece (Elt F) S256x1 .f32)])) = k0_pay20
      rw [List.nil_append, View.read_writes_junk_eq_canon, View.canon_unit_zero hz2]
    · show arg10.view.read (Elt F) (arg10.view.writes (Elt F) arg10.view.junk ([] ++ [(⟨Rect.unit ![0, 0] S256x1.size Gen.inb_S256x1_S256x1_0_0, k0_pay21⟩ : View.Piece (Elt F) S256x1 .f32)])) = k0_pay21
      rw [List.nil_append, View.read_writes_junk_eq_canon, View.canon_unit_zero hz2]
  | succ n ih =>
    intro hn
    have hlt : n < k0_t2_loop.trips := hn
    obtain ⟨ih7, ih8, ih9, ih10⟩ := ih (Nat.le_of_lt hlt)
    have e7 : arg7.view.read (Elt F) (arg7.view.writes (Elt F) (arg7.view.writes (Elt F) arg7.view.junk [(⟨Rect.unit ![0, 0] S256x1.size Gen.inb_S256x1_S256x1_0_0, k0_pay18⟩ : View.Piece (Elt F) S256x1 .f32)]) (pb_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) (arg7.view.writes (Elt F) arg7.view.junk [(⟨Rect.unit ![0, 0] S256x1.size Gen.inb_S256x1_S256x1_0_0, k0_pay18⟩ : View.Piece (Elt F) S256x1 .f32)]) (arg8.view.writes (Elt F) arg8.view.junk [(⟨Rect.unit ![0, 0] S256x1.size Gen.inb_S256x1_S256x1_0_0, k0_pay19⟩ : View.Piece (Elt F) S256x1 .f32)]) (arg9.view.writes (Elt F) arg9.view.junk [(⟨Rect.unit ![0, 0] S256x1.size Gen.inb_S256x1_S256x1_0_0, k0_pay20⟩ : View.Piece (Elt F) S256x1 .f32)]) (arg10.view.writes (Elt F) arg10.view.junk [(⟨Rect.unit ![0, 0] S256x1.size Gen.inb_S256x1_S256x1_0_0, k0_pay21⟩ : View.Piece (Elt F) S256x1 .f32)]) n).1) = posAcc v9 v27 v28 x0 x2 n := by
      rw [← View.writes_append]; exact ih7
    have e8 : arg8.view.read (Elt F) (arg8.view.writes (Elt F) (arg8.view.writes (Elt F) arg8.view.junk [(⟨Rect.unit ![0, 0] S256x1.size Gen.inb_S256x1_S256x1_0_0, k0_pay19⟩ : View.Piece (Elt F) S256x1 .f32)]) (pb_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) (arg7.view.writes (Elt F) arg7.view.junk [(⟨Rect.unit ![0, 0] S256x1.size Gen.inb_S256x1_S256x1_0_0, k0_pay18⟩ : View.Piece (Elt F) S256x1 .f32)]) (arg8.view.writes (Elt F) arg8.view.junk [(⟨Rect.unit ![0, 0] S256x1.size Gen.inb_S256x1_S256x1_0_0, k0_pay19⟩ : View.Piece (Elt F) S256x1 .f32)]) (arg9.view.writes (Elt F) arg9.view.junk [(⟨Rect.unit ![0, 0] S256x1.size Gen.inb_S256x1_S256x1_0_0, k0_pay20⟩ : View.Piece (Elt F) S256x1 .f32)]) (arg10.view.writes (Elt F) arg10.view.junk [(⟨Rect.unit ![0, 0] S256x1.size Gen.inb_S256x1_S256x1_0_0, k0_pay21⟩ : View.Piece (Elt F) S256x1 .f32)]) n).2.1) = negAcc v9 v27 v28 x0 x2 n := by
      rw [← View.writes_append]; exact ih8
    have e9 : arg9.view.read (Elt F) (arg9.view.writes (Elt F) (arg9.view.writes (Elt F) arg9.view.junk [(⟨Rect.unit ![0, 0] S256x1.size Gen.inb_S256x1_S256x1_0_0, k0_pay20⟩ : View.Piece (Elt F) S256x1 .f32)]) (pb_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) (arg7.view.writes (Elt F) arg7.view.junk [(⟨Rect.unit ![0, 0] S256x1.size Gen.inb_S256x1_S256x1_0_0, k0_pay18⟩ : View.Piece (Elt F) S256x1 .f32)]) (arg8.view.writes (Elt F) arg8.view.junk [(⟨Rect.unit ![0, 0] S256x1.size Gen.inb_S256x1_S256x1_0_0, k0_pay19⟩ : View.Piece (Elt F) S256x1 .f32)]) (arg9.view.writes (Elt F) arg9.view.junk [(⟨Rect.unit ![0, 0] S256x1.size Gen.inb_S256x1_S256x1_0_0, k0_pay20⟩ : View.Piece (Elt F) S256x1 .f32)]) (arg10.view.writes (Elt F) arg10.view.junk [(⟨Rect.unit ![0, 0] S256x1.size Gen.inb_S256x1_S256x1_0_0, k0_pay21⟩ : View.Piece (Elt F) S256x1 .f32)]) n).2.2.1) = hasPosAcc v9 v27 v28 x0 x2 n := by
      rw [← View.writes_append]; exact ih9
    have e10 : arg10.view.read (Elt F) (arg10.view.writes (Elt F) (arg10.view.writes (Elt F) arg10.view.junk [(⟨Rect.unit ![0, 0] S256x1.size Gen.inb_S256x1_S256x1_0_0, k0_pay21⟩ : View.Piece (Elt F) S256x1 .f32)]) (pb_k0_t2 (F := F) 𝒱 c bd i arg1 harg1 arg2 harg2 arg3 harg3 arg4 harg4 arg5 harg5 arg6 harg6 arg7 harg7 arg8 harg8 arg9 harg9 arg10 harg10 v9 v27 v28 (harg1.unread x0) (harg3.unread x2) (arg7.view.writes (Elt F) arg7.view.junk [(⟨Rect.unit ![0, 0] S256x1.size Gen.inb_S256x1_S256x1_0_0, k0_pay18⟩ : View.Piece (Elt F) S256x1 .f32)]) (arg8.view.writes (Elt F) arg8.view.junk [(⟨Rect.unit ![0, 0] S256x1.size Gen.inb_S256x1_S256x1_0_0, k0_pay19⟩ : View.Piece (Elt F) S256x1 .f32)]) (arg9.view.writes (Elt F) arg9.view.junk [(⟨Rect.unit ![0, 0] S256x1.size Gen.inb_S256x1_S256x1_0_0, k0_pay20⟩ : View.Piece (Elt F) S256x1 .f32)]) (arg10.view.writes (Elt F) arg10.view.junk [(⟨Rect.unit ![0, 0] S256x1.size Gen.inb_S256x1_S256x1_0_0, k0_pay21⟩ : View.Piece (Elt F) S256x1 .f32)]) n).2.2.2) = hasNegAcc v9 v27 v28 x0 x2 n := by
      rw [← View.writes_append]; exact ih10
    have hs := pb_k0_t2_succ (F := F) 𝒱 c bd i arg1 harg1 arg2 harg2 arg3 harg3 arg4 harg4 arg5 harg5 arg6 harg6 arg7 harg7 arg8 harg8 arg9 harg9 arg10 harg10 v9 v27 v28 (harg1.unread x0) (harg3.unread x2) (arg7.view.writes (Elt F) arg7.view.junk [(⟨Rect.unit ![0, 0] S256x1.size Gen.inb_S256x1_S256x1_0_0, k0_pay18⟩ : View.Piece (Elt F) S256x1 .f32)]) (arg8.view.writes (Elt F) arg8.view.junk [(⟨Rect.unit ![0, 0] S256x1.size Gen.inb_S256x1_S256x1_0_0, k0_pay19⟩ : View.Piece (Elt F) S256x1 .f32)]) (arg9.view.writes (Elt F) arg9.view.junk [(⟨Rect.unit ![0, 0] S256x1.size Gen.inb_S256x1_S256x1_0_0, k0_pay20⟩ : View.Piece (Elt F) S256x1 .f32)]) (arg10.view.writes (Elt F) arg10.view.junk [(⟨Rect.unit ![0, 0] S256x1.size Gen.inb_S256x1_S256x1_0_0, k0_pay21⟩ : View.Piece (Elt F) S256x1 .f32)]) ⟨n, hlt⟩
    have h7 : posAcc v9 v27 v28 x0 x2 (n + 1) = k0_pay1 (k0_pay9 v9 v28 (simChunk2 x0 ⟨n, hlt⟩) (labChunk2 x2 ⟨n, hlt⟩)) (posAcc v9 v27 v28 x0 x2 n) := by
      rw [posAcc, dif_pos hlt]
    have h8 : negAcc v9 v27 v28 x0 x2 (n + 1) = k0_pay2 (k0_pay10 v9 v27 (simChunk2 x0 ⟨n, hlt⟩) (labChunk2 x2 ⟨n, hlt⟩)) (negAcc v9 v27 v28 x0 x2 n) := by
      rw [negAcc, dif_pos hlt]
    have h9 : hasPosAcc v9 v27 v28 x0 x2 (n + 1) = k0_pay3 (k0_pay11 v9 v28 (simChunk2 x0 ⟨n, hlt⟩) (labChunk2 x2 ⟨n, hlt⟩)) (hasPosAcc v9 v27 v28 x0 x2 n) := by
      rw [hasPosAcc, dif_pos hlt]
    have h10 : hasNegAcc v9 v27 v28 x0 x2 (n + 1) = k0_pay4 (k0_pay7 v9 v27 (simChunk2 x0 ⟨n, hlt⟩) (labChunk2 x2 ⟨n, hlt⟩)) (hasNegAcc v9 v27 v28 x0 x2 n) := by
      rw [hasNegAcc, dif_pos hlt]
    rw [show (n + 1) = (⟨n, hlt⟩ : Fin k0_t2_loop.trips).val + 1 from rfl, hs, h7, h8, h9, h10]
    dsimp only
    rw [List.append_assoc, List.append_assoc, List.append_assoc, List.append_assoc,
      trip2_posAcc, trip2_negAcc, trip2_hasPosAcc, trip2_hasNegAcc, e7, e8, e9, e10]
    exact ⟨rfl, rfl, rfl, rfl⟩

end Cert.KernelIdeal.Passes

end
-- ==== Proof.KOut.lean ====
/-
  What one grid point leaves in its block of the result.

  A grid point owns 256 rows of the similarity matrix. Its first pass fixes, per row, the hardest positive and the
  hardest negative; its second pass accumulates the two sums and the two marks under those thresholds; the block it
  stores is, per row, (log1p of the positive sum)/2 + (log1p of the negative sum)/40 where both marks exceed 1/2, and 0
  elsewhere. Here the block the point writes back is identified with that composition of the two passes applied
  to the point's three input blocks, for any float instance.
-/
import proofs.«179485_j52381421142559_2_alg».proof.Proof.KLoop1
import proofs.«179485_j52381421142559_2_alg».proof.Proof.KLoop2

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.Sem

variable {F : FTy → Type} [FloatOps F]

/-- The hardest-positive column of a stripe: the first pass's minimum after all its chunks. -/
def minPos (x0 : Vec F S256x8192 .f32) (x1 : Vec F S256x1 .i32) (x2 : Vec F S1x8192 .i32) : Vec F S256x1 .f32 :=
  minAcc x1 x0 x2 (Scf.trips k0_t1_loop.lb k0_t1_loop.ub k0_t1_loop.st)

/-- The hardest-negative column of a stripe: the first pass's maximum after all its chunks. -/
def maxNeg (x0 : Vec F S256x8192 .f32) (x1 : Vec F S256x1 .i32) (x2 : Vec F S1x8192 .i32) : Vec F S256x1 .f32 :=
  maxAcc x1 x0 x2 (Scf.trips k0_t1_loop.lb k0_t1_loop.ub k0_t1_loop.st)

/-- The block of row losses a stripe yields. -/
def stripeLoss (x0 : Vec F S256x8192 .f32) (x1 : Vec F S256x1 .i32) (x2 : Vec F S1x8192 .i32) : Vec F S256x1 .f32 :=
  k0_pay5
    (posAcc (k0_pay14 x1) (minPos x0 x1 x2) (maxNeg x0 x1 x2) x0 x2 (Scf.trips k0_t2_loop.lb k0_t2_loop.ub k0_t2_loop.st))
    (negAcc (k0_pay14 x1) (minPos x0 x1 x2) (maxNeg x0 x1 x2) x0 x2 (Scf.trips k0_t2_loop.lb k0_t2_loop.ub k0_t2_loop.st))
    (hasPosAcc (k0_pay14 x1) (minPos x0 x1 x2) (maxNeg x0 x1 x2) x0 x2 (Scf.trips k0_t2_loop.lb k0_t2_loop.ub k0_t2_loop.st))
    (hasNegAcc (k0_pay14 x1) (minPos x0 x1 x2) (maxNeg x0 x1 x2) x0 x2 (Scf.trips k0_t2_loop.lb k0_t2_loop.ub k0_t2_loop.st))

/-- The body's one store into the output block holds the stripe's row losses. -/
theorem out_eq (c : Dev nD) (i : grid0.Coords) (arg1 : Memref sig .tc .vmem S256x8192 .f32) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (x0 : Vec F S256x8192 .f32) (x1 : Vec F S256x1 .i32) (x2 : Vec F S1x8192 .i32) :
    out0_A_3 (F := F) c i arg1 harg1 arg2 harg2 arg3 harg3 arg4 harg4 arg5 harg5 arg6 harg6 arg7 harg7 arg8 harg8 arg9 harg9 arg10 harg10 x0 x1 x2 = stripeLoss x0 x1 x2 := by
  unfold out0_A_3
  rw [View.read_writes_junk_eq_canon]
  unfold kernelRun0_A
  dsimp only
  sl_unfold_words
  rw [View.canon_unit_zero hz]
  simp only [View.readAt_eq_ld, harg2.read_unread, View.ld_unit_zero (S := S256x1) hz]
  have p1 := pass1_read (F := F) Variants.none c none i arg1 harg1 arg2 harg2 arg3 harg3 arg4 harg4 arg5 harg5 arg6 harg6 arg7 harg7 arg8 harg8 arg9 harg9 arg10 harg10 x1 x0 x2 (Scf.trips k0_t1_loop.lb k0_t1_loop.ub k0_t1_loop.st) (Nat.le_refl _)
  rw [p1.1, p1.2]
  have p2 := pass2_read (F := F) Variants.none c none i arg1 harg1 arg2 harg2 arg3 harg3 arg4 harg4 arg5 harg5 arg6 harg6 arg7 harg7 arg8 harg8 arg9 harg9 arg10 harg10 (k0_pay14 x1) (minAcc x1 x0 x2 (Scf.trips k0_t1_loop.lb k0_t1_loop.ub k0_t1_loop.st)) (maxAcc x1 x0 x2 (Scf.trips k0_t1_loop.lb k0_t1_loop.ub k0_t1_loop.st)) x0 x2 (Scf.trips k0_t2_loop.lb k0_t2_loop.ub k0_t2_loop.st) (Nat.le_refl _)
  rw [p2.1, p2.2.1, p2.2.2.1, p2.2.2.2]
  rfl

variable (m : (ℓ : Loc nD τ sig) → Buf (Elt F) ℓ)

/-- So after grid point t the output's staging buffer holds the row losses of the point's stripe. -/
theorem outsAt_eq (c : Dev nD) (t : Fin cfg0.N) :
    outsAt0 m c t = stripeLoss (iblk m c 0 t) (iblk m c 1 t) (iblk m c 2 t) := by
  unfold outsAt0
  exact out_eq c _ _ _ _ _ _ _ _ _ _ _ _ _ _ _ _ _ _ _ _ _ _ _ _

end Cert.KernelIdeal.Passes

end
-- ==== Proof.Spec.lean ====
/-
  The loss of one row, as a function of the row's data.

  A row of the similarity matrix is a family s of 8192 extended reals; the row has a label a and the columns have labels
  l. A column is a positive of the row when the labels agree and s is below the threshold 0.99999, a negative when the
  labels differ. The hardest positive is the least s among the positives (+inf if there is none), the hardest
  negative the greatest s among the negatives (-inf if there is none). A negative is selected when s + 0.1 exceeds the
  hardest positive, a positive when s - 0.1 is below the hardest negative. The row's loss is
  log1p(sum over selected positives of exp(-2(s - 1/2)))/2 + log1p(sum over selected negatives of exp(40(s - 1/2)))/40
  when the row has a selected positive and a selected negative, and 0 otherwise. Every number is an extended real and
  every operation the exact one, so the definitions below only compose those operations; the constants are kept as the
  binary words both programs spell.
-/
import Idealize.ShloMosaic.PureOps.Ideal
import Idealize.ShloMosaic.PureOps.Ideal.Laws

noncomputable section

namespace Cert.Mining

open Idealize.ShloMosaic

/-- The threshold below which an equal-label pair counts as a positive (the word of 0.99999). -/
def thresh : EReal := Ideal.ofBits .f32 0x3F7FFF58#32
/-- The mining margin (the word of 0.1). -/
def margin : EReal := Ideal.ofBits .f32 0x3DCCCCCD#32
/-- One half. -/
def half : EReal := Ideal.ofBits .f32 0x3F000000#32
/-- The start of a minimum. -/
def posInf : EReal := Ideal.ofBits .f32 0x7F800000#32
/-- The start of a maximum. -/
def negInf : EReal := Ideal.ofBits .f32 0xFF800000#32
/-- The start of a sum. -/
def zero : EReal := Ideal.ofBits .f32 0x00000000#32

/-- Column with label l is a positive of the row with label a, at similarity s. -/
def isPos (a l : BitVec 32) (s : EReal) : BitVec 1 := IntOp.andi (IntOp.cmpi .eq a l) (Ideal.cmp .olt s thresh)
/-- Column with label l is a negative of the row with label a. -/
def isNeg (a l : BitVec 32) : BitVec 1 := IntOp.xori (IntOp.cmpi .eq a l) 1#1
/-- What a column contributes to the hardest-positive minimum. -/
def minTerm (a l : BitVec 32) (s : EReal) : EReal := Scalar.select (isPos a l s) s posInf
/-- What a column contributes to the hardest-negative maximum. -/
def maxTerm (a l : BitVec 32) (s : EReal) : EReal := Scalar.select (isNeg a l) s negInf
/-- The column is a selected negative, given the hardest positive mn. -/
def selNeg (a l : BitVec 32) (s mn : EReal) : BitVec 1 := IntOp.andi (isNeg a l) (Ideal.cmp .ogt (s + margin) mn)
/-- The column is a selected positive, given the hardest negative mx. -/
def selPos (a l : BitVec 32) (s mx : EReal) : BitVec 1 := IntOp.andi (isPos a l s) (Ideal.cmp .olt (s - margin) mx)
/-- What a column contributes to the positive sum. -/
def posTerm (a l : BitVec 32) (s mx : EReal) : EReal :=
  Scalar.select (selPos a l s mx) (Ideal.exp (Ideal.ofBits .f32 0xC0000000#32 * (s - half))) zero
/-- What a column contributes to the negative sum. -/
def negTerm (a l : BitVec 32) (s mn : EReal) : EReal :=
  Scalar.select (selNeg a l s mn) (Ideal.exp (Ideal.ofBits .f32 0x42200000#32 * (s - half))) zero
/-- A truth value as the number 0 or 1. -/
def mark (b : BitVec 1) : EReal := (((b.setWidth 32).toInt : ℝ) : EReal)

variable (a : BitVec 32) (S : Fin 8192 → EReal) (L : Fin 8192 → BitVec 32)

/-- The row's hardest positive. -/
def rowMin : EReal := (Finset.univ : Finset (Fin 8192)).fold min posInf fun c => minTerm a (L c) (S c)
/-- The row's hardest negative. -/
def rowMax : EReal := (Finset.univ : Finset (Fin 8192)).fold max negInf fun c => maxTerm a (L c) (S c)
/-- The sum over the row's selected positives. -/
def rowPosSum : EReal := ∑ c : Fin 8192, posTerm a (L c) (S c) (rowMax a S L)
/-- The sum over the row's selected negatives. -/
def rowNegSum : EReal := ∑ c : Fin 8192, negTerm a (L c) (S c) (rowMin a S L)
/-- 1 if the row has a selected positive, else 0. -/
def rowHasPos : EReal := (Finset.univ : Finset (Fin 8192)).fold max zero fun c => mark (selPos a (L c) (S c) (rowMax a S L))
/-- 1 if the row has a selected negative, else 0. -/
def rowHasNeg : EReal := (Finset.univ : Finset (Fin 8192)).fold max zero fun c => mark (selNeg a (L c) (S c) (rowMin a S L))
/-- The row's loss. -/
def rowLoss : EReal :=
  Scalar.select (IntOp.andi (Ideal.cmp .ogt (rowHasPos a S L) half) (Ideal.cmp .ogt (rowHasNeg a S L) half))
    (Ideal.div (Ideal.log1p (rowPosSum a S L)) (Ideal.ofBits .f32 0x40000000#32)
      + Ideal.div (Ideal.log1p (rowNegSum a S L)) (Ideal.ofBits .f32 0x42200000#32))
    zero

end Cert.Mining

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.KPay.lean ====
/-
  The one-chunk updates of the two passes, read at a row.

  Each update of a running column takes a 256 x 1024 chunk of similarities X, the 1024 column labels L of the chunk, the
  256 row labels, and the column so far; at row p it combines the column's entry with a reduction over the chunk's 1024
  places of a term that depends on the row's label, the place's label and the similarity at (p, j). Here each of the
  six updates, at the extended reals, is written as that combination: a minimum or a maximum from its start value,
  or a sum, over j, of the row terms of the specification.
-/
import proofs.«179485_j52381421142559_2_alg».proof.Proof.Gen.KernelIdeal.Skeleton
import proofs.«179485_j52381421142559_2_alg».proof.Proof.Spec
import proofs.«179485_j52381421142559_2_alg».proof.Proof.LibKeepdims
import proofs.«179485_j52381421142559_2_alg».proof.Proof.LibBroadcastTo
import Idealize.ShloMosaic.Lib.ValueIdx
import Idealize.ShloMosaic.Lib.Pipeline.Value
import Idealize.ShloMosaic.PureOps.Ideal.Laws

set_option maxRecDepth 16384

noncomputable section

namespace Cert.KernelIdeal.RowPay

open Cert.KernelIdeal Cert.KernelIdeal.Gen Cert.Mining
open Idealize.ShloMosaic Idealize.ShloMosaic.ValueIdx

/-! ## Row reductions of a 256 x 1024 chunk, kept as a column -/

/-- Row p of the chunk, place j: the index the reduction over the second axis visits. -/
theorem lift_row (h : S256x1024.Reduces [1] S256) (p : Fin 256) (j : Fin 1024) : h.lift (ix1 p) j = ix2 p j :=
  funext fun c => Fin.ext (by match c with | ⟨0, _⟩ => rfl | ⟨1, _⟩ => rfl)

/-- A row minimum kept as a column: at row p, the minimum from the start word over the row's 1024 places. -/
theorem rowMinReduce (src : FVec Ideal S256x1024 .f32) (acc : BitVec 32) (h : S256x1024.Reduces [1] S256)
    (hφ : FKind.Formats .f32) (hacc : acc = FKind.minimumf.neutral .f32 hφ) (sc : S256.ShapeCasts S256x1) (p : Fin 256) :
    shapeCast S256x1 (multiReduction (F := Ideal) .minimumf [1] S256 src acc h hφ hacc) sc (ix2 p (0 : Fin 1))
      = (Finset.univ : Finset (Fin 1024)).fold min (Ideal.ofBits .f32 acc) fun j => src (ix2 p j) := by
  refine (Cert.Keepdims.shapeCast_a_a1_apply _ sc p 0).trans ?_
  refine (multiReduction_minimumf_eq_fold src acc h hφ hacc (ix1 p)).trans ?_
  refine (h.fold_filter_drop_single _ _ src (ix1 p)).trans ?_
  exact Finset.fold_congr fun j _ => congrArg src (lift_row h p j)

/-- A row maximum kept as a column. -/
theorem rowMaxReduce (src : FVec Ideal S256x1024 .f32) (acc : BitVec 32) (h : S256x1024.Reduces [1] S256)
    (hφ : FKind.Formats .f32) (hacc : acc = FKind.maximumf.neutral .f32 hφ) (sc : S256.ShapeCasts S256x1) (p : Fin 256) :
    shapeCast S256x1 (multiReduction (F := Ideal) .maximumf [1] S256 src acc h hφ hacc) sc (ix2 p (0 : Fin 1))
      = (Finset.univ : Finset (Fin 1024)).fold max (Ideal.ofBits .f32 acc) fun j => src (ix2 p j) := by
  refine (Cert.Keepdims.shapeCast_a_a1_apply _ sc p 0).trans ?_
  refine (Ideal.multiReduction_maximumf_single src acc h hφ hacc (ix1 p)).trans ?_
  exact Finset.fold_congr fun j _ => congrArg src (lift_row h p j)

/-- A row sum kept as a column. -/
theorem rowSumReduce (src : FVec Ideal S256x1024 .f32) (acc : BitVec 32) (h : S256x1024.Reduces [1] S256)
    (hφ : FKind.Formats .f32) (hacc : acc = FKind.add.neutral .f32 hφ) (sc : S256.ShapeCasts S256x1) (p : Fin 256) :
    shapeCast S256x1 (multiReduction (F := Ideal) .add [1] S256 src acc h hφ hacc) sc (ix2 p (0 : Fin 1))
      = ∑ j : Fin 1024, src (ix2 p j) := by
  refine (Cert.Keepdims.shapeCast_a_a1_apply _ sc p 0).trans ?_
  refine (Ideal.multiReduction_add_single src acc h hφ hacc (ix1 p)).trans ?_
  exact Finset.sum_congr rfl fun j _ => congrArg src (lift_row h p j)

/-! ## The label comparison -/

/-- First pass: the row's label against the place's label. -/
theorem same1 (v8 : Vec Ideal S256x1 .i32) (L : Vec Ideal S1x1024 .i32) (p : Fin 256) (j : Fin 1024) :
    k0_pay15 (F := Ideal) v8 L (ix2 p j) = IntOp.cmpi .eq (v8 (ix2 p 0)) (L (ix2 0 j)) := by
  unfold k0_pay15 k0_pay14
  show IntOp.cmpi .eq (broadcastTo S256x1024 (shapeCast S256x1 v8 _) _ (ix2 p j)) (broadcastTo S256x1024 (shapeCast S1x1024 L _) _ (ix2 p j)) = _
  rw [Cert.BroadcastTo.col_apply, Cert.BroadcastTo.row_apply, shapeCast_self, shapeCast_self]

/-- Second pass: the same comparison. -/
theorem same2 (v9 : IVec S256x1 32) (L : Vec Ideal S1x1024 .i32) (p : Fin 256) (j : Fin 1024) :
    k0_pay6 (F := Ideal) v9 L (ix2 p j) = IntOp.cmpi .eq (v9 (ix2 p 0)) (L (ix2 0 j)) := by
  unfold k0_pay6
  show IntOp.cmpi .eq (broadcastTo S256x1024 v9 _ (ix2 p j)) (broadcastTo S256x1024 (shapeCast S1x1024 L _) _ (ix2 p j)) = _
  rw [Cert.BroadcastTo.col_apply, Cert.BroadcastTo.row_apply, shapeCast_self]

/-! ## The first pass -/

/-- The running minimum's update at row p. -/
theorem minUpdate (v8 : Vec Ideal S256x1 .i32) (X : Vec Ideal S256x1024 .f32) (L : Vec Ideal S1x1024 .i32)
    (f : Vec Ideal S256x1 .f32) (p : Fin 256) :
    k0_pay16 (F := Ideal) v8 X L f (ix2 p 0)
      = min (f (ix2 p 0)) ((Finset.univ : Finset (Fin 1024)).fold min posInf
          fun j => minTerm (v8 (ix2 p 0)) (L (ix2 0 j)) (X (ix2 p j))) := by
  unfold k0_pay16
  rw [shapeCast_self]
  refine congrArg (min (f (ix2 p 0))) ((rowMinReduce _ _ _ _ _ _ p).trans ?_)
  refine Finset.fold_congr fun j _ => ?_
  show Scalar.select (IntOp.andi (k0_pay15 (F := Ideal) v8 L (ix2 p j)) (Ideal.cmp .olt (X (ix2 p j)) thresh)) (X (ix2 p j)) posInf = _
  rw [same1]; rfl

/-- The running maximum's update at row p. -/
theorem maxUpdate (v8 : Vec Ideal S256x1 .i32) (X : Vec Ideal S256x1024 .f32) (L : Vec Ideal S1x1024 .i32)
    (f : Vec Ideal S256x1 .f32) (p : Fin 256) :
    k0_pay17 (F := Ideal) v8 X L f (ix2 p 0)
      = max (f (ix2 p 0)) ((Finset.univ : Finset (Fin 1024)).fold max negInf
          fun j => maxTerm (v8 (ix2 p 0)) (L (ix2 0 j)) (X (ix2 p j))) := by
  unfold k0_pay17
  rw [shapeCast_self]
  refine congrArg (max (f (ix2 p 0))) ((rowMaxReduce _ _ _ _ _ _ p).trans ?_)
  refine Finset.fold_congr fun j _ => ?_
  show Scalar.select (IntOp.xori (k0_pay15 (F := Ideal) v8 L (ix2 p j)) 1#1) (X (ix2 p j)) negInf = _
  rw [same1]; rfl

/-! ## The second pass -/

/-- The selected-positive mask of the second pass at (p, j). -/
theorem selPos_at (v9 : IVec S256x1 32) (v28 : Vec Ideal S256x1 .f32) (X : Vec Ideal S256x1024 .f32)
    (L : Vec Ideal S1x1024 .i32) (p : Fin 256) (j : Fin 1024) :
    k0_pay8 (F := Ideal) v9 v28 X L (ix2 p j) = selPos (v9 (ix2 p 0)) (L (ix2 0 j)) (X (ix2 p j)) (v28 (ix2 p 0)) := by
  unfold k0_pay8
  show IntOp.andi (IntOp.andi (k0_pay6 (F := Ideal) v9 L (ix2 p j)) (Ideal.cmp .olt (X (ix2 p j)) thresh))
      (Ideal.cmp .olt (X (ix2 p j) - margin) (broadcastTo S256x1024 v28 _ (ix2 p j))) = _
  rw [same2, Cert.BroadcastTo.col_apply]; rfl

/-- The selected-negative mask of the second pass at (p, j). -/
theorem selNeg_at (v9 : IVec S256x1 32) (v27 : Vec Ideal S256x1 .f32) (X : Vec Ideal S256x1024 .f32)
    (L : Vec Ideal S1x1024 .i32) (p : Fin 256) (j : Fin 1024) :
    k0_pay7 (F := Ideal) v9 v27 X L (ix2 p j) = selNeg (v9 (ix2 p 0)) (L (ix2 0 j)) (X (ix2 p j)) (v27 (ix2 p 0)) := by
  unfold k0_pay7
  show IntOp.andi (IntOp.xori (k0_pay6 (F := Ideal) v9 L (ix2 p j)) 1#1)
      (Ideal.cmp .ogt (X (ix2 p j) + margin) (broadcastTo S256x1024 v27 _ (ix2 p j))) = _
  rw [same2, Cert.BroadcastTo.col_apply]; rfl

/-- The positive sum's update at row p. -/
theorem posUpdate (v9 : IVec S256x1 32) (v28 : Vec Ideal S256x1 .f32) (X : Vec Ideal S256x1024 .f32)
    (L : Vec Ideal S1x1024 .i32) (f : Vec Ideal S256x1 .f32) (p : Fin 256) :
    k0_pay1 (F := Ideal) (k0_pay9 v9 v28 X L) f (ix2 p 0)
      = f (ix2 p 0) + ∑ j : Fin 1024, posTerm (v9 (ix2 p 0)) (L (ix2 0 j)) (X (ix2 p j)) (v28 (ix2 p 0)) := by
  unfold k0_pay1 k0_pay9
  rw [shapeCast_self]
  refine congrArg (f (ix2 p 0) + ·) ((rowSumReduce _ _ _ _ _ _ p).trans ?_)
  refine Finset.sum_congr rfl fun j _ => ?_
  show Scalar.select (k0_pay8 (F := Ideal) v9 v28 X L (ix2 p j))
      (Ideal.exp (Ideal.ofBits .f32 0xC0000000#32 * (X (ix2 p j) - half))) zero = _
  rw [selPos_at]; rfl

/-- The negative sum's update at row p. -/
theorem negUpdate (v9 : IVec S256x1 32) (v27 : Vec Ideal S256x1 .f32) (X : Vec Ideal S256x1024 .f32)
    (L : Vec Ideal S1x1024 .i32) (f : Vec Ideal S256x1 .f32) (p : Fin 256) :
    k0_pay2 (F := Ideal) (k0_pay10 v9 v27 X L) f (ix2 p 0)
      = f (ix2 p 0) + ∑ j : Fin 1024, negTerm (v9 (ix2 p 0)) (L (ix2 0 j)) (X (ix2 p j)) (v27 (ix2 p 0)) := by
  unfold k0_pay2 k0_pay10
  rw [shapeCast_self]
  refine congrArg (f (ix2 p 0) + ·) ((rowSumReduce _ _ _ _ _ _ p).trans ?_)
  refine Finset.sum_congr rfl fun j _ => ?_
  show Scalar.select (k0_pay7 (F := Ideal) v9 v27 X L (ix2 p j))
      (Ideal.exp (Ideal.ofBits .f32 0x42200000#32 * (X (ix2 p j) - half))) zero = _
  rw [selNeg_at]; rfl

/-- The positive mark's update at row p. -/
theorem hasPosUpdate (v9 : IVec S256x1 32) (v28 : Vec Ideal S256x1 .f32) (X : Vec Ideal S256x1024 .f32)
    (L : Vec Ideal S1x1024 .i32) (f : Vec Ideal S256x1 .f32) (p : Fin 256) :
    k0_pay3 (F := Ideal) (k0_pay11 v9 v28 X L) f (ix2 p 0)
      = max (f (ix2 p 0)) ((Finset.univ : Finset (Fin 1024)).fold max negInf
          fun j => mark (selPos (v9 (ix2 p 0)) (L (ix2 0 j)) (X (ix2 p j)) (v28 (ix2 p 0)))) := by
  unfold k0_pay3 k0_pay11
  rw [shapeCast_self]
  refine congrArg (max (f (ix2 p 0))) ((rowMaxReduce _ _ _ _ _ _ p).trans ?_)
  refine Finset.fold_congr fun j _ => ?_
  show mark (k0_pay8 (F := Ideal) v9 v28 X L (ix2 p j)) = _
  rw [selPos_at]

/-- The negative mark's update at row p. -/
theorem hasNegUpdate (v9 : IVec S256x1 32) (v27 : Vec Ideal S256x1 .f32) (X : Vec Ideal S256x1024 .f32)
    (L : Vec Ideal S1x1024 .i32) (f : Vec Ideal S256x1 .f32) (p : Fin 256) :
    k0_pay4 (F := Ideal) (k0_pay7 v9 v27 X L) f (ix2 p 0)
      = max (f (ix2 p 0)) ((Finset.univ : Finset (Fin 1024)).fold max negInf
          fun j => mark (selNeg (v9 (ix2 p 0)) (L (ix2 0 j)) (X (ix2 p j)) (v27 (ix2 p 0)))) := by
  unfold k0_pay4
  rw [shapeCast_self]
  refine congrArg (max (f (ix2 p 0))) ((rowMaxReduce _ _ _ _ _ _ p).trans ?_)
  refine Finset.fold_congr fun j _ => ?_
  show mark (k0_pay7 (F := Ideal) v9 v27 X L (ix2 p j)) = _
  rw [selNeg_at]

/-- The row's loss from the four columns the second pass ends with. -/
theorem loss_at (A7 A8 A9 A10 : Vec Ideal S256x1 .f32) (p : Fin 256) :
    k0_pay5 (F := Ideal) A7 A8 A9 A10 (ix2 p 0)
      = Scalar.select (IntOp.andi (Ideal.cmp .ogt (A9 (ix2 p 0)) half) (Ideal.cmp .ogt (A10 (ix2 p 0)) half))
          (Ideal.div (Ideal.log1p (A7 (ix2 p 0))) (Ideal.ofBits .f32 0x40000000#32)
            + Ideal.div (Ideal.log1p (A8 (ix2 p 0))) (Ideal.ofBits .f32 0x42200000#32))
          zero := by
  unfold k0_pay5
  rfl

end Cert.KernelIdeal.RowPay

end
-- ==== Proof.LibChunks.lean ====
/-
  A running value updated chunk by chunk ends at the value over the whole range.

  A range of T·C places is visited in T chunks of C places. Three running values are considered, each started at a
  value b and updated once per chunk: a sum that adds the chunk's sum, a minimum that takes the minimum with the chunk's
  minimum, a maximum that takes the maximum with the chunk's maximum. After the last chunk the sum is the sum over all
  places (in any commutative additive monoid, so on the extended reals with no finiteness asked), and the minimum
  (maximum) is the minimum (maximum) from b over all places (in any linear order; the chunk's own minimum may be taken
  from any start value not below b, the chunk's own maximum from any start value not above b, since b is folded in
  anyway). Over Mathlib only.
-/
import Mathlib.Algebra.BigOperators.Fin
import Mathlib.Logic.Equiv.Fin.Basic
import Mathlib.Data.Finset.Fold
import Mathlib.Order.Lattice

namespace LibChunks

open Finset

/-- The place C·t + c lies below T·C when t < T and c < C. -/
theorem place_lt {T C : ℕ} {t : ℕ} (ht : t < T) (c : Fin C) : C * t + c.val < T * C := by
  calc C * t + c.val < C * t + C := Nat.add_lt_add_left c.isLt _
    _ = C * (t + 1) := (Nat.mul_succ _ _).symm
    _ ≤ C * T := Nat.mul_le_mul_left _ ht
    _ = T * C := Nat.mul_comm _ _

/-- Every place below T·C is C·t + c for its chunk t and its position c in the chunk. -/
theorem place_split {T C : ℕ} (k : Fin (T * C)) :
    ∃ (t : ℕ) (ht : t < T) (c : Fin C), (⟨C * t + c.val, place_lt ht c⟩ : Fin (T * C)) = k := by
  have hlt : k.val < T * C := k.isLt
  have hC : 0 < C := by
    rcases Nat.eq_zero_or_pos C with h | h
    · exfalso
      have h2 : T * C = 0 := by rw [h, Nat.mul_zero]
      omega
    · exact h
  have hk : k.val < C * T := by
    have h3 := Nat.mul_comm C T
    omega
  refine ⟨k.val / C, Nat.div_lt_of_lt_mul hk, ⟨k.val % C, Nat.mod_lt _ hC⟩, Fin.ext ?_⟩
  exact Nat.div_add_mod k.val C

section Sum

variable {M : Type*} [AddCommMonoid M]

/-- A sum started at zero that adds one chunk's sum per step holds, after n steps, the sum of the first n chunks. -/
theorem chain_sum_prefix (T : ℕ) (S : (t : ℕ) → t < T → M) (acc : ℕ → M) (h0 : acc 0 = 0)
    (hs : ∀ n (h : n < T), acc (n + 1) = acc n + S n h) :
    ∀ n (hn : n ≤ T), acc n = ∑ t : Fin n, S t.val (Nat.lt_of_lt_of_le t.isLt hn)
  | 0, _ => by rw [h0]; exact (Finset.sum_empty).symm
  | n + 1, hn => by
    rw [hs n hn, chain_sum_prefix T S acc h0 hs n (Nat.le_of_lt hn), Fin.sum_univ_castSucc]
    rfl

/-- … and after the last step the sum over all T·C places. -/
theorem chain_sum_blocks (T C : ℕ) (g : Fin (T * C) → M) (acc : ℕ → M) (h0 : acc 0 = 0)
    (hs : ∀ n (h : n < T), acc (n + 1) = acc n + ∑ c : Fin C, g ⟨C * n + c.val, place_lt h c⟩) :
    acc T = ∑ k : Fin (T * C), g k := by
  rw [chain_sum_prefix T (fun n h => ∑ c : Fin C, g ⟨C * n + c.val, place_lt h c⟩) acc h0 hs T (Nat.le_refl _),
    ← Equiv.sum_comp (finProdFinEquiv (m := T) (n := C)) g, Fintype.sum_prod_type]
  refine Finset.sum_congr rfl fun t _ => Finset.sum_congr rfl fun c _ => ?_
  congr 1
  apply Fin.ext
  simp [finProdFinEquiv, Nat.add_comm]

end Sum

section Order

variable {β : Type*} [LinearOrder β]

/-- A minimum started at b that takes, per step, the minimum with the chunk's minimum (from any b' ≥ b) is, after the
    last step, the minimum from b over all T·C places. -/
theorem chain_min_blocks (T C : ℕ) (b b' : β) (hb : b ≤ b') (g : Fin (T * C) → β) (acc : ℕ → β) (h0 : acc 0 = b)
    (hs : ∀ n (h : n < T), acc (n + 1)
      = min (acc n) ((Finset.univ : Finset (Fin C)).fold min b' fun c => g ⟨C * n + c.val, place_lt h c⟩)) :
    acc T = (Finset.univ : Finset (Fin (T * C))).fold min b g := by
  have key : ∀ n (hn : n ≤ T) (z : β),
      z ≤ acc n ↔ z ≤ b ∧ ∀ t (ht : t < n) (c : Fin C), z ≤ g ⟨C * t + c.val, place_lt (Nat.lt_of_lt_of_le ht hn) c⟩ := by
    intro n
    induction n with
    | zero => intro _ z; rw [h0]; exact ⟨fun h => ⟨h, fun t ht => absurd ht (Nat.not_lt_zero t)⟩, fun h => h.1⟩
    | succ n ih =>
      intro hn z
      rw [hs n hn, le_min_iff, ih (Nat.le_of_lt hn), Finset.le_fold_min]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans h1 hb, fun c _ => h2 n (Nat.lt_succ_self n) c⟩
  refine le_antisymm ?_ ?_
  · refine (Finset.le_fold_min _).2 ⟨((key T (Nat.le_refl _) _).1 le_rfl).1, fun k _ => ?_⟩
    obtain ⟨t, ht, c, rfl⟩ := place_split k
    exact ((key T (Nat.le_refl _) _).1 le_rfl).2 t ht c
  · refine (key T (Nat.le_refl _) _).2 ⟨(Finset.le_fold_min _).1 le_rfl |>.1, fun t ht c => ?_⟩
    exact ((Finset.le_fold_min _).1 le_rfl).2 _ (Finset.mem_univ _)

/-- A maximum started at b that takes, per step, the maximum with the chunk's maximum (from any b' ≤ b) is, after the
    last step, the maximum from b over all T·C places. -/
theorem chain_max_blocks (T C : ℕ) (b b' : β) (hb : b' ≤ b) (g : Fin (T * C) → β) (acc : ℕ → β) (h0 : acc 0 = b)
    (hs : ∀ n (h : n < T), acc (n + 1)
      = max (acc n) ((Finset.univ : Finset (Fin C)).fold max b' fun c => g ⟨C * n + c.val, place_lt h c⟩)) :
    acc T = (Finset.univ : Finset (Fin (T * C))).fold max b g := by
  have key : ∀ n (hn : n ≤ T) (z : β),
      acc n ≤ z ↔ b ≤ z ∧ ∀ t (ht : t < n) (c : Fin C), g ⟨C * t + c.val, place_lt (Nat.lt_of_lt_of_le ht hn) c⟩ ≤ z := by
    intro n
    induction n with
    | zero => intro _ z; rw [h0]; exact ⟨fun h => ⟨h, fun t ht => absurd ht (Nat.not_lt_zero t)⟩, fun h => h.1⟩
    | succ n ih =>
      intro hn z
      rw [hs n hn, max_le_iff, ih (Nat.le_of_lt hn), Finset.fold_max_le]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans hb h1, fun c _ => h2 n (Nat.lt_succ_self n) c⟩
  refine le_antisymm ?_ ?_
  · refine (key T (Nat.le_refl _) _).2 ⟨(Finset.fold_max_le _).1 le_rfl |>.1, fun t ht c => ?_⟩
    exact ((Finset.fold_max_le _).1 le_rfl).2 _ (Finset.mem_univ _)
  · refine (Finset.fold_max_le _).2 ⟨((key T (Nat.le_refl _) _).1 le_rfl).1, fun k _ => ?_⟩
    obtain ⟨t, ht, c, rfl⟩ := place_split k
    exact ((key T (Nat.le_refl _) _).1 le_rfl).2 t ht c

end Order

end LibChunks
-- ==== Proof.Marks.lean ====
/-
  Constants and marks.

  The words of -inf and of one half as extended reals; a truth value as the number 0 or 1; and the one fact the two
  programs' validity tests rest on: the greatest of finitely many 0/1 marks, started at 0, exceeds one half exactly when
  some mark is set, which is the disjunction of the truth values. Also: on one bit, negation is exclusive-or with 1.
-/
import proofs.«179485_j52381421142559_2_alg».proof.Proof.Spec
import Idealize.ShloMosaic.PureOps.Reduce

noncomputable section

namespace Cert.Mining

open Idealize.ShloMosaic

theorem negInf_eq_bot : negInf = ⊥ := by simp [negInf, Ideal.ofBits, Ideal.ieee]

theorem half_eq : half = ((1 / 2 : ℝ) : EReal) := by
  simp [half, Ideal.ofBits, Ideal.ieee, -EReal.coe_mul]; norm_num

theorem zero_eq : zero = 0 := Ideal.ofBits_zero_f32

theorem negInf_le_zero : negInf ≤ zero := by rw [negInf_eq_bot]; exact bot_le

theorem bit_cases (b : BitVec 1) : b = 0#1 ∨ b = 1#1 := by revert b; decide

/-- On one bit, negation is exclusive-or with 1. -/
theorem not_eq_xor (b : BitVec 1) : ~~~b = IntOp.xori b 1#1 := by revert b; decide

theorem andi_comm (x y : BitVec 1) : IntOp.andi x y = IntOp.andi y x := by revert x y; decide

theorem mark_zero : mark 0#1 = 0 := by simp [mark]
theorem mark_one : mark 1#1 = 1 := by simp [mark]

/-- One half is below a mark exactly when the mark is set. -/
theorem half_lt_mark (b : BitVec 1) : half < mark b ↔ b = 1#1 := by
  rcases bit_cases b with rfl | rfl
  · rw [mark_zero, half_eq]
    constructor
    · intro h; exfalso
      have : ((1 / 2 : ℝ) : EReal) < ((0 : ℝ) : EReal) := h
      rw [EReal.coe_lt_coe_iff] at this; norm_num at this
    · intro h; exact absurd h (by decide)
  · rw [mark_one, half_eq]
    constructor
    · intro _; rfl
    · intro _
      show ((1 / 2 : ℝ) : EReal) < ((1 : ℝ) : EReal)
      rw [EReal.coe_lt_coe_iff]; norm_num

theorem not_half_lt_zero : ¬ half < zero := by
  rw [zero_eq, half_eq]
  intro h
  have : ((1 / 2 : ℝ) : EReal) < ((0 : ℝ) : EReal) := h
  rw [EReal.coe_lt_coe_iff] at this; norm_num at this

/-- The greatest mark from 0 exceeds one half exactly when some truth value is set: the disjunction of them all. -/
theorem any_mark {n : ℕ} (f : Fin n → BitVec 1) :
    Ideal.cmp .ogt ((Finset.univ : Finset (Fin n)).fold max zero fun c => mark (f c)) half
      = (Finset.univ : Finset (Fin n)).fold IntOp.ori 0#1 f := by
  have hL : half < ((Finset.univ : Finset (Fin n)).fold max zero fun c => mark (f c)) ↔ ∃ c, f c = 1#1 := by
    rw [Finset.lt_fold_max]
    constructor
    · rintro (h | ⟨c, _, h⟩)
      · exact absurd h not_half_lt_zero
      · exact ⟨c, (half_lt_mark _).1 h⟩
    · rintro ⟨c, h⟩; exact Or.inr ⟨c, Finset.mem_univ c, (half_lt_mark _).2 h⟩
  have hR : ((Finset.univ : Finset (Fin n)).fold IntOp.ori 0#1 f = 1#1) ↔ ∃ c, f c = 1#1 := by
    have := Finset.fold_op_rel_iff_or (op := IntOp.ori) (r := fun (_ v : BitVec 1) => v = 1#1)
      (fun {x y z} => by revert y z; decide) (c := 0#1) (b := 0#1) (s := (Finset.univ : Finset (Fin n))) (f := f)
    rw [this]
    constructor
    · rintro (h | ⟨c, _, h⟩)
      · exact absurd h (by decide)
      · exact ⟨c, h⟩
    · rintro ⟨c, h⟩; exact Or.inr ⟨c, Finset.mem_univ c, h⟩
  show BitVec.ofBool (decide (half < _)) = _
  by_cases h : ∃ c, f c = 1#1
  · rw [decide_eq_true (hL.2 h), hR.2 h]; rfl
  · rw [decide_eq_false (fun h' => h (hL.1 h'))]
    rcases bit_cases ((Finset.univ : Finset (Fin n)).fold IntOp.ori 0#1 f) with e | e
    · rw [e]; rfl
    · exact absurd (hR.1 e) h

end Cert.Mining

end
-- ==== Proof.KRow.lean ====
/-
  The row losses of a stripe are the losses of its rows.

  The two passes visit a stripe's 8192 columns in 8 chunks of 1024. Minima, maxima and sums over the columns do not
  depend on that grouping, so at row p each column the passes end with is the corresponding quantity of the row's
  data: the row label a = x1(p, 0), the similarities S c = x0(p, c), the column labels L c = x2(0, c). Hence the
  block a grid point writes back holds, at row p, the loss of that row.
-/
import proofs.«179485_j52381421142559_2_alg».proof.Proof.KOut
import proofs.«179485_j52381421142559_2_alg».proof.Proof.KPay
import proofs.«179485_j52381421142559_2_alg».proof.Proof.LibChunks
import proofs.«179485_j52381421142559_2_alg».proof.Proof.Marks

set_option maxRecDepth 16384

noncomputable section

namespace Cert.KernelIdeal.RowPay

open Cert.KernelIdeal Cert.KernelIdeal.Gen Cert.Mining Cert.KernelIdeal.Passes
open Idealize.ShloMosaic Idealize.ShloMosaic.ValueIdx

/-- The first pass makes 8 visits. -/
theorem trips1 : k0_t1_loop.trips = 8 := by decide +kernel
/-- The second pass makes 8 visits. -/
theorem trips2 : k0_t2_loop.trips = 8 := by decide +kernel

/-- Place j of chunk k is column 1024·k + j. -/
theorem col_lt {T : ℕ} (hT : T ≤ 8) (k : Fin T) (j : Fin 1024) : 1024 * k.val + j.val < 8192 := by
  have := k.isLt; have := j.isLt; omega

/-! ## The chunks, read at an entry -/

theorem simChunk1_apply (x0 : Vec Ideal S256x8192 .f32) (k : Fin k0_t1_loop.trips) (p : Fin 256) (j : Fin 1024) :
    simChunk1 x0 k (ix2 p j) = x0 (ix2 p ⟨1024 * k.val + j.val, col_lt (le_of_eq trips1) k j⟩) := by
  refine congrArg x0 (funext fun a => Fin.ext ?_)
  match a with
  | ⟨0, _⟩ => show (k0_off1 k) 0 + 1 * p.val = p.val; rw [Gen.k0_off1_eq]; show 0 + 1 * p.val = p.val; omega
  | ⟨1, _⟩ => show (k0_off1 k) 1 + 1 * j.val = 1024 * k.val + j.val; rw [Gen.k0_off1_eq]; show 1024 * k.val + 1 * j.val = _; omega

theorem labChunk1_apply (x2 : Vec Ideal S1x8192 .i32) (k : Fin k0_t1_loop.trips) (j : Fin 1024) :
    labChunk1 x2 k (ix2 0 j) = x2 (ix2 0 ⟨1024 * k.val + j.val, col_lt (le_of_eq trips1) k j⟩) := by
  refine congrArg x2 (funext fun a => Fin.ext ?_)
  match a with
  | ⟨0, _⟩ => show (k0_off2 k) 0 + 1 * 0 = 0; rw [Gen.k0_off2_eq]; rfl
  | ⟨1, _⟩ => show (k0_off2 k) 1 + 1 * j.val = 1024 * k.val + j.val; rw [Gen.k0_off2_eq]; show 1024 * k.val + 1 * j.val = _; omega

theorem simChunk2_apply (x0 : Vec Ideal S256x8192 .f32) (k : Fin k0_t2_loop.trips) (p : Fin 256) (j : Fin 1024) :
    simChunk2 x0 k (ix2 p j) = x0 (ix2 p ⟨1024 * k.val + j.val, col_lt (le_of_eq trips2) k j⟩) := by
  refine congrArg x0 (funext fun a => Fin.ext ?_)
  match a with
  | ⟨0, _⟩ => show (k0_off3 k) 0 + 1 * p.val = p.val; rw [Gen.k0_off3_eq]; show 0 + 1 * p.val = p.val; omega
  | ⟨1, _⟩ => show (k0_off3 k) 1 + 1 * j.val = 1024 * k.val + j.val; rw [Gen.k0_off3_eq]; show 1024 * k.val + 1 * j.val = _; omega

theorem labChunk2_apply (x2 : Vec Ideal S1x8192 .i32) (k : Fin k0_t2_loop.trips) (j : Fin 1024) :
    labChunk2 x2 k (ix2 0 j) = x2 (ix2 0 ⟨1024 * k.val + j.val, col_lt (le_of_eq trips2) k j⟩) := by
  refine congrArg x2 (funext fun a => Fin.ext ?_)
  match a with
  | ⟨0, _⟩ => show (k0_off4 k) 0 + 1 * 0 = 0; rw [Gen.k0_off4_eq]; rfl
  | ⟨1, _⟩ => show (k0_off4 k) 1 + 1 * j.val = 1024 * k.val + j.val; rw [Gen.k0_off4_eq]; show 1024 * k.val + 1 * j.val = _; omega

/-! ## The start columns -/

theorem start_posInf (p : Fin 256) : k0_pay12 (F := Ideal) (ix2 p 0) = posInf := by
  unfold k0_pay12; rw [shapeCast_self]; rfl
theorem start_negInf (p : Fin 256) : k0_pay13 (F := Ideal) (ix2 p 0) = negInf := by
  unfold k0_pay13; rw [shapeCast_self]; rfl
theorem start_zero18 (p : Fin 256) : k0_pay18 (F := Ideal) (ix2 p 0) = zero := by
  unfold k0_pay18; rw [shapeCast_self]; rfl
theorem start_zero19 (p : Fin 256) : k0_pay19 (F := Ideal) (ix2 p 0) = zero := by
  unfold k0_pay19; rw [shapeCast_self]; rfl
theorem start_zero20 (p : Fin 256) : k0_pay20 (F := Ideal) (ix2 p 0) = zero := by
  unfold k0_pay20; rw [shapeCast_self]; rfl
theorem start_zero21 (p : Fin 256) : k0_pay21 (F := Ideal) (ix2 p 0) = zero := by
  unfold k0_pay21; rw [shapeCast_self]; rfl

/-! ## The first pass at a row -/

variable (x0 : Vec Ideal S256x8192 .f32) (x1 : Vec Ideal S256x1 .i32) (x2 : Vec Ideal S1x8192 .i32) (p : Fin 256)

/-- The hardest positive of row p. -/
theorem minPos_row :
    minPos x0 x1 x2 (ix2 p 0) = rowMin (x1 (ix2 p 0)) (fun c => x0 (ix2 p c)) (fun c => x2 (ix2 0 c)) := by
  unfold minPos rowMin
  rw [show Scf.trips k0_t1_loop.lb k0_t1_loop.ub k0_t1_loop.st = 8 from trips1]
  refine LibChunks.chain_min_blocks 8 1024 posInf posInf le_rfl
    (fun k => minTerm (x1 (ix2 p 0)) (x2 (ix2 0 k)) (x0 (ix2 p k))) (fun n => minAcc x1 x0 x2 n (ix2 p 0)) (start_posInf p) ?_
  intro n h
  have h' : n < k0_t1_loop.trips := by rw [trips1]; exact h
  show minAcc x1 x0 x2 (n + 1) (ix2 p 0) = _
  rw [minAcc, dif_pos h', minUpdate]
  refine congrArg (min _) (Finset.fold_congr fun j _ => ?_)
  rw [simChunk1_apply, labChunk1_apply]

/-- The hardest negative of row p. -/
theorem maxNeg_row :
    maxNeg x0 x1 x2 (ix2 p 0) = rowMax (x1 (ix2 p 0)) (fun c => x0 (ix2 p c)) (fun c => x2 (ix2 0 c)) := by
  unfold maxNeg rowMax
  rw [show Scf.trips k0_t1_loop.lb k0_t1_loop.ub k0_t1_loop.st = 8 from trips1]
  refine LibChunks.chain_max_blocks 8 1024 negInf negInf le_rfl
    (fun k => maxTerm (x1 (ix2 p 0)) (x2 (ix2 0 k)) (x0 (ix2 p k))) (fun n => maxAcc x1 x0 x2 n (ix2 p 0)) (start_negInf p) ?_
  intro n h
  have h' : n < k0_t1_loop.trips := by rw [trips1]; exact h
  show maxAcc x1 x0 x2 (n + 1) (ix2 p 0) = _
  rw [maxAcc, dif_pos h', maxUpdate]
  refine congrArg (max _) (Finset.fold_congr fun j _ => ?_)
  rw [simChunk1_apply, labChunk1_apply]

/-! ## The second pass at a row, for any thresholds -/

variable (v9 : IVec S256x1 32) (v27 v28 : Vec Ideal S256x1 .f32)

theorem posAcc_row :
    posAcc v9 v27 v28 x0 x2 (Scf.trips k0_t2_loop.lb k0_t2_loop.ub k0_t2_loop.st) (ix2 p 0)
      = ∑ c : Fin 8192, posTerm (v9 (ix2 p 0)) (x2 (ix2 0 c)) (x0 (ix2 p c)) (v28 (ix2 p 0)) := by
  rw [show Scf.trips k0_t2_loop.lb k0_t2_loop.ub k0_t2_loop.st = 8 from trips2]
  refine LibChunks.chain_sum_blocks 8 1024
    (fun k => posTerm (v9 (ix2 p 0)) (x2 (ix2 0 k)) (x0 (ix2 p k)) (v28 (ix2 p 0))) (fun n => posAcc v9 v27 v28 x0 x2 n (ix2 p 0))
    ((start_zero18 p).trans zero_eq) ?_
  intro n h
  have h' : n < k0_t2_loop.trips := by rw [trips2]; exact h
  show posAcc v9 v27 v28 x0 x2 (n + 1) (ix2 p 0) = _
  rw [posAcc, dif_pos h', posUpdate]
  refine congrArg (_ + ·) (Finset.sum_congr rfl fun j _ => ?_)
  rw [simChunk2_apply, labChunk2_apply]

theorem negAcc_row :
    negAcc v9 v27 v28 x0 x2 (Scf.trips k0_t2_loop.lb k0_t2_loop.ub k0_t2_loop.st) (ix2 p 0)
      = ∑ c : Fin 8192, negTerm (v9 (ix2 p 0)) (x2 (ix2 0 c)) (x0 (ix2 p c)) (v27 (ix2 p 0)) := by
  rw [show Scf.trips k0_t2_loop.lb k0_t2_loop.ub k0_t2_loop.st = 8 from trips2]
  refine LibChunks.chain_sum_blocks 8 1024
    (fun k => negTerm (v9 (ix2 p 0)) (x2 (ix2 0 k)) (x0 (ix2 p k)) (v27 (ix2 p 0))) (fun n => negAcc v9 v27 v28 x0 x2 n (ix2 p 0))
    ((start_zero19 p).trans zero_eq) ?_
  intro n h
  have h' : n < k0_t2_loop.trips := by rw [trips2]; exact h
  show negAcc v9 v27 v28 x0 x2 (n + 1) (ix2 p 0) = _
  rw [negAcc, dif_pos h', negUpdate]
  refine congrArg (_ + ·) (Finset.sum_congr rfl fun j _ => ?_)
  rw [simChunk2_apply, labChunk2_apply]

theorem hasPosAcc_row :
    hasPosAcc v9 v27 v28 x0 x2 (Scf.trips k0_t2_loop.lb k0_t2_loop.ub k0_t2_loop.st) (ix2 p 0)
      = (Finset.univ : Finset (Fin 8192)).fold max zero
          fun c => mark (selPos (v9 (ix2 p 0)) (x2 (ix2 0 c)) (x0 (ix2 p c)) (v28 (ix2 p 0))) := by
  rw [show Scf.trips k0_t2_loop.lb k0_t2_loop.ub k0_t2_loop.st = 8 from trips2]
  refine LibChunks.chain_max_blocks 8 1024 zero negInf negInf_le_zero
    (fun k => mark (selPos (v9 (ix2 p 0)) (x2 (ix2 0 k)) (x0 (ix2 p k)) (v28 (ix2 p 0))))
    (fun n => hasPosAcc v9 v27 v28 x0 x2 n (ix2 p 0)) (start_zero20 p) ?_
  intro n h
  have h' : n < k0_t2_loop.trips := by rw [trips2]; exact h
  show hasPosAcc v9 v27 v28 x0 x2 (n + 1) (ix2 p 0) = _
  rw [hasPosAcc, dif_pos h', hasPosUpdate]
  refine congrArg (max _) (Finset.fold_congr fun j _ => ?_)
  rw [simChunk2_apply, labChunk2_apply]

theorem hasNegAcc_row :
    hasNegAcc v9 v27 v28 x0 x2 (Scf.trips k0_t2_loop.lb k0_t2_loop.ub k0_t2_loop.st) (ix2 p 0)
      = (Finset.univ : Finset (Fin 8192)).fold max zero
          fun c => mark (selNeg (v9 (ix2 p 0)) (x2 (ix2 0 c)) (x0 (ix2 p c)) (v27 (ix2 p 0))) := by
  rw [show Scf.trips k0_t2_loop.lb k0_t2_loop.ub k0_t2_loop.st = 8 from trips2]
  refine LibChunks.chain_max_blocks 8 1024 zero negInf negInf_le_zero
    (fun k => mark (selNeg (v9 (ix2 p 0)) (x2 (ix2 0 k)) (x0 (ix2 p k)) (v27 (ix2 p 0))))
    (fun n => hasNegAcc v9 v27 v28 x0 x2 n (ix2 p 0)) (start_zero21 p) ?_
  intro n h
  have h' : n < k0_t2_loop.trips := by rw [trips2]; exact h
  show hasNegAcc v9 v27 v28 x0 x2 (n + 1) (ix2 p 0) = _
  rw [hasNegAcc, dif_pos h', hasNegUpdate]
  refine congrArg (max _) (Finset.fold_congr fun j _ => ?_)
  rw [simChunk2_apply, labChunk2_apply]

/-! ## The stripe's losses -/

/-- Row p of the block a stripe yields is the loss of the stripe's row p. -/
theorem stripeLoss_row :
    stripeLoss x0 x1 x2 (ix2 p 0) = rowLoss (x1 (ix2 p 0)) (fun c => x0 (ix2 p c)) (fun c => x2 (ix2 0 c)) := by
  have hv9 : k0_pay14 (F := Ideal) x1 (ix2 p 0) = x1 (ix2 p 0) := by unfold k0_pay14; rw [shapeCast_self]
  unfold stripeLoss rowLoss rowPosSum rowNegSum rowHasPos rowHasNeg
  rw [loss_at, posAcc_row, negAcc_row, hasPosAcc_row, hasNegAcc_row, hv9, minPos_row, maxNeg_row]

end Cert.KernelIdeal.RowPay

end
-- ==== Proof.KArr.lean ====
/-
  The kernel's run, read as a value.

  The grid has 32 points; point t owns rows 256·t … 256·t + 255 of the similarity matrix, reads the matching rows of
  the row-label column and the whole row of column labels, and writes back rows 256·t … of the column of row losses. The
  two label arrays are reshapes of the one label vector. So the column the region leaves holds, at row r, the loss of
  row r of the inputs; the lines after the region add the 8192 entries onto zero and divide by 8192.
-/
import proofs.«179485_j52381421142559_2_alg».proof.Proof.KRow
import Idealize.ShloMosaic.Lib.StableHlo.Run
import Idealize.ShloMosaic.Lib.ValueLayout

set_option maxRecDepth 16384

noncomputable section

namespace Cert.KernelIdeal.Whole

open Cert.KernelIdeal Cert.KernelIdeal.Gen Cert.Mining Cert.KernelIdeal.Passes Cert.KernelIdeal.RowPay
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Where each window's block sits at point t: the row windows at block row t, the label row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row-label column the region finds is the label vector as a column. -/
theorem V_rowlab (c : Dev nD) :
    (V m c main_v0 : S8192x1.Idx → BitVec 32) = shapeCast S8192x1 (m ((c : Thread nD τ).loc main_arg1)) Gen.shapeCasts_S8192_S8192x1 := by
  show StableHlo.after hostOps0 (fun b => m (c, b)) (Proc.devRef .tc main_v0) = _
  after_results
  rfl

/-- The column-label row the region finds is the label vector as a row. -/
theorem V_collab (c : Dev nD) :
    (V m c main_v1 : S1x8192.Idx → BitVec 32) = shapeCast S1x8192 (m ((c : Thread nD τ).loc main_arg1)) Gen.shapeCasts_S8192_S1x8192 := by
  show StableHlo.after hostOps0 (fun b => m (c, b)) (Proc.devRef .tc main_v1) = _
  after_results
  rfl

/-- The similarity matrix on core c. -/
abbrev sim (c : Dev nD) : S8192x8192.Idx → EReal := m ((c : Thread nD τ).loc main_arg0)
/-- The label vector on core c. -/
abbrev lab (c : Dev nD) : S8192.Idx → BitVec 32 := m ((c : Thread nD τ).loc main_arg1)

/-- Row 256·t + p. -/
abbrev rowAt (t : Fin cfg0.N) (p : Fin 256) : Fin 8192 := ⟨256 * t.val + p.val, by
  have h : t.val < 32 := lt_of_lt_of_eq t.isLt N_0
  have := p.isLt; omega⟩

/-! ## The three input blocks of a point, read at an entry -/

theorem simBlock_apply (c : Dev nD) (t : Fin cfg0.N) (p : Fin 256) (k : Fin 8192) :
    (iblk m c 0 t : Vec Ideal S256x8192 .f32) (ix2 p k) = sim m c (ix2 (rowAt t p) k) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 256 + 1 * p.val = 256 * t.val + p.val; rw [e0]; omega
  | ⟨1, _⟩ => show win0_0.index t (1 : Fin 2) * 8192 + 1 * k.val = k.val; rw [e1]; omega

theorem rowLabBlock_apply (c : Dev nD) (t : Fin cfg0.N) (p : Fin 256) :
    (iblk m c 1 t : Vec Ideal S256x1 .i32) (ix2 p 0) = lab m c (ix1 (rowAt t p)) := by
  obtain ⟨-, -, e0, e1, -⟩ := idx_facts t
  unfold iblk
  rw [View.read_apply]
  show (V m c main_v0 : S8192x1.Idx → BitVec 32) _ = _
  rw [V_rowlab]
  refine (shapeCast_apply _ _ _ (ix1 (rowAt t p)) ?_)
  rw [Shape.rowMajor_val_two, Shape.rowMajor_val_one]
  show 256 * t.val + p.val = (win0_1.index t (0 : Fin 2) * 256 + 1 * p.val) * 1 + (win0_1.index t (1 : Fin 2) * 1 + 1 * 0)
  rw [e0, e1]; omega

theorem colLabBlock_apply (c : Dev nD) (t : Fin cfg0.N) (k : Fin 8192) :
    (iblk m c 2 t : Vec Ideal S1x8192 .i32) (ix2 0 k) = lab m c (ix1 k) := by
  obtain ⟨-, -, -, -, e0, e1, -⟩ := idx_facts t
  unfold iblk
  rw [View.read_apply]
  show (V m c main_v1 : S1x8192.Idx → BitVec 32) _ = _
  rw [V_collab]
  refine (shapeCast_apply _ _ _ (ix1 k) ?_)
  rw [Shape.rowMajor_val_two, Shape.rowMajor_val_one]
  show k.val = (win0_2.index t (0 : Fin 2) * 1 + 1 * 0) * 8192 + (win0_2.index t (1 : Fin 2) * 8192 + 1 * k.val)
  rw [e0, e1]; omega

/-! ## The column of row losses -/

/-- The row of an index of the loss column. -/
abbrev rowOf (i : S8192x1.Idx) : Fin 8192 := ⟨(i 0).val, (i 0).isLt⟩

/-- The loss of every row, as a column. -/
def lossCol (X0 : S8192x8192.Idx → EReal) (X1 : S8192.Idx → BitVec 32) : S8192x1.Idx → EReal :=
  fun i => rowLoss (X1 (ix1 (rowOf i))) (fun k => X0 (ix2 (rowOf i) k)) (fun k => X1 (ix1 k))

/-- What point t writes back is its block of the loss column. -/
theorem flushed_eq (c : Dev nD) (t : Fin cfg0.N) :
    (dats m 0 c).flushed 3 t = ((cfg0.win 3).blk t).view.read (Elt Ideal) (lossCol (sim m c) (lab m c)) := by
  obtain ⟨-, -, -, -, -, -, e0, e1⟩ := idx_facts t
  show (cfg0.win 3).cut (grid0.coords t) ((dats m 0 c).after 3 t) = _
  rw [after0_3, outsAt_eq]
  funext j
  obtain ⟨p, q, rfl⟩ : ∃ (p : Fin 256) (q : Fin 1), j = ix2 p q := ⟨j 0, j 1, eq_ix2 j⟩
  obtain rfl : q = 0 := Subsingleton.elim _ _
  show stripeLoss (iblk m c 0 t) (iblk m c 1 t) (iblk m c 2 t) (ix2 p 0)
    = lossCol (sim m c) (lab m c) (((cfg0.win 3).blk t).view.emb (ix2 p 0))
  rw [stripeLoss_row]
  have hr : rowOf (((cfg0.win 3).blk t).view.emb (ix2 p 0)) = rowAt t p := Fin.ext (by
    show win0_3.index t (0 : Fin 2) * 256 + 1 * p.val = 256 * t.val + p.val; rw [e0]; omega)
  unfold lossCol
  rw [hr, rowLabBlock_apply]
  congr 1
  · funext k; exact simBlock_apply m c t p k
  · funext k; exact colLabBlock_apply m c t k

/-- Every row of the loss column lies in some point's block. -/
theorem cover (c : Dev nD) (i : S8192x1.Idx) :
    ∃ t : Fin cfg0.N, (cfg0.win 3).flush t = true ∧ i ∈ ((cfg0.win 3).blk t).view.set := by
  have h0 : (i 0).val < 8192 := (i 0).isLt
  have h1 : (i 1).val < 1 := (i 1).isLt
  let t : Fin cfg0.N := ⟨(i 0).val / 256, by rw [show cfg0.N = 32 from N_0]; omega⟩
  obtain ⟨-, -, -, -, -, -, e0, e1⟩ := idx_facts t
  refine ⟨t, flush0_3 t, ?_⟩
  show i ∈ ((View.whole main_v2).slice (win0_3.rect t)).set
  rw [View.set_slice_whole, Rect.mem_set_unit]
  intro a
  match a with
  | ⟨0, _⟩ =>
    show win0_3.index t (0 : Fin 2) * 256 ≤ (i 0).val ∧ (i 0).val < win0_3.index t (0 : Fin 2) * 256 + 256
    rw [e0]; show (i 0).val / 256 * 256 ≤ (i 0).val ∧ (i 0).val < (i 0).val / 256 * 256 + 256; omega
  | ⟨1, _⟩ =>
    show win0_3.index t (1 : Fin 2) * 1 ≤ (i 1).val ∧ (i 1).val < win0_3.index t (1 : Fin 2) * 1 + 1
    rw [e1]; omega

/-- The column the region leaves. -/
theorem final (c : Dev nD) : (dats m 0 c).arrAt 3 cfg0.N = lossCol (sim m c) (lab m c) :=
  (dats m 0 c).arrAt_eq_of_cover 3 (lossCol (sim m c) (lab m c)) (fun t _ => flushed_eq m c t) (cover c)

/-! ## The lines after the region -/

/-- Add a column's entries onto zero and divide by 8192. -/
def meanOf (A : S8192x1.Idx → EReal) : S_.Idx → EReal :=
  Host.divf (F := Ideal) (Host.reduceAdd (F := Ideal) (φ := .f32) A (constant (F := Ideal) S_ .f32 0x00000000#32) Gen.reducesTo_S8192x1_S_d0_1 Gen.h_S_)
    (constant (F := Ideal) S_ .f32 0x46000000#32)

/-- The program's result after the run. -/
theorem tail_eq (c : Dev nD) :
    Pipeline.afterTail₀ cfgs (dats m) 0 (V0 m) [hostOps1] c main_v4 = meanOf (lossCol (sim m c) (lab m c)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = lossCol (sim m c) (lab m c) :=
    (Pipeline.withArrays_arr spec0 launch0.win.arr_inj c _ _ 3).trans (final m c)
  rw [e]; rfl

/-- THE KERNEL'S RUN: every weakly fair execution ends with the result at the mean of the row losses and the
    arguments as they were. -/
theorem run : θ_run defs (onTc (τ := τ) (main (F := Ideal))) ⟨m, fun _ => 0, ρ⟩ fun r => ∀ c : Dev nD,
      r.2.mem ((c : Thread nD τ).loc main_v4) = meanOf (lossCol (sim m c) (lab m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Whole

end
-- ==== Proof.Total.lean ====
/-
  The whole loss: the mean of the 8192 row losses.

  From the similarity matrix X0 and the label vector X1, row r has label X1 r, similarities X0 (r, ·) and faces the
  column labels X1; the loss is the sum of the row losses added onto zero, divided by 8192.
-/
import proofs.«179485_j52381421142559_2_alg».proof.Proof.Spec
import Idealize.ShloMosaic.Lib.ValueIdx

noncomputable section

namespace Cert.Mining

open Idealize.ShloMosaic Idealize.ShloMosaic.ValueIdx

/-- The loss of row r of the inputs. -/
def lossOfRow (X0 : (⟨2, ![8192, 8192]⟩ : Shape).Idx → EReal) (X1 : (⟨1, ![8192]⟩ : Shape).Idx → BitVec 32) (r : Fin 8192) : EReal :=
  rowLoss (X1 (ix1 r)) (fun k => X0 (ix2 r k)) (fun k => X1 (ix1 k))

/-- The mean of the row losses. -/
def meanLoss (X0 : (⟨2, ![8192, 8192]⟩ : Shape).Idx → EReal) (X1 : (⟨1, ![8192]⟩ : Shape).Idx → BitVec 32) : EReal :=
  Ideal.div (zero + ∑ r : Fin 8192, lossOfRow X0 X1 r) (Ideal.ofBits .f32 0x46000000#32)

end Cert.Mining

end
-- ==== Proof.KMean.lean ====
/-
  The kernel's result is the mean of the row losses: the lines after the region add the loss column's 8192 entries
  (one per row, the column's second axis having one place) onto zero and divide by 8192.
-/
import proofs.«179485_j52381421142559_2_alg».proof.Proof.KArr
import proofs.«179485_j52381421142559_2_alg».proof.Proof.Total

set_option maxRecDepth 16384

noncomputable section

namespace Cert.KernelIdeal.Whole

open Cert.KernelIdeal Cert.KernelIdeal.Gen Cert.Mining
open Idealize.ShloMosaic Idealize.ShloMosaic.TcCoe Idealize.ShloMosaic.ValueIdx Idealize.SL.Sem

theorem meanOf_lossCol (X0 : S8192x8192.Idx → EReal) (X1 : S8192.Idx → BitVec 32) :
    meanOf (lossCol X0 X1) = fun _ => meanLoss X0 X1 := by
  funext i
  unfold meanOf meanLoss
  show Ideal.div (Host.reduceAdd (F := Ideal) (φ := .f32) (lossCol X0 X1) (constant (F := Ideal) S_ .f32 0x00000000#32) Gen.reducesTo_S8192x1_S_d0_1 Gen.h_S_ i) (Ideal.ofBits .f32 0x46000000#32) = _
  refine congrArg (Ideal.div · _) ?_
  have e : Host.reduceAdd (F := Ideal) (φ := .f32) (lossCol X0 X1) (constant (F := Ideal) S_ .f32 0x00000000#32) Gen.reducesTo_S8192x1_S_d0_1 Gen.h_S_ i
      = zero + ∑ j : S8192x1.Idx, lossCol X0 X1 j := by
    simp only [Host.reduceAdd, Ideal.hostReduceAdd_def]
    exact Ideal.hostReduceAdd_total Gen.reducesTo_S8192x1_S_d0_1 (fun b => b.elim0) (lossCol X0 X1) _ i
  rw [e, sum_idx2]
  refine congrArg (zero + ·) (Finset.sum_congr rfl fun r _ => ?_)
  rw [Fin.sum_univ_one]
  rfl

end Cert.KernelIdeal.Whole

end
-- ==== Proof.RefSide.lean ====
/-
  The reference, read as a value.

  The reference forms every pair (r, c) at once: the 8192 x 8192 masks and terms, their reductions along each row,
  the thresholds broadcast back over the pairs, the sums and the two "any" tests, the per-row loss, and its mean. Read
  at a pair or at a row each stage is the corresponding quantity of the specification, and the validity test "some
  selected negative and some selected positive" is the specification's test on the greatest marks.
-/
import proofs.«179485_j52381421142559_2_alg».proof.Proof.Gen.ReferenceIdeal.Read
import proofs.«179485_j52381421142559_2_alg».proof.Proof.Total
import proofs.«179485_j52381421142559_2_alg».proof.Proof.Marks
import Idealize.ShloMosaic.Lib.ValueIdx
import Idealize.ShloMosaic.Lib.Pipeline.Value
import Idealize.ShloMosaic.PureOps.Ideal.Laws
import Idealize.ShloMosaic.PureOps.Reduce

set_option maxRecDepth 16384

noncomputable section

namespace Cert.ReferenceIdeal.RowVal

open Cert.ReferenceIdeal Cert.ReferenceIdeal.Gen Cert.ReferenceIdeal.Read Cert.Mining
open Idealize.ShloMosaic Idealize.ShloMosaic.ValueIdx

variable (X0 : (⟨S8192x8192, .f32⟩ : BufTy).Contents (Elt Ideal)) (X1 : (⟨S8192, .i32⟩ : BufTy).Contents (Elt Ideal))
variable (r c : Fin 8192)

/-! ## The constants, broadcast -/

theorem c5 (i : S8192x8192.Idx) : val_main_v5 (F := Ideal) i = thresh := by rw [val_main_v5_apply]; rfl
theorem c13 (i : S8192x8192.Idx) : val_main_v13 (F := Ideal) i = margin := by rw [val_main_v13_apply]; rfl
theorem c19 (i : S8192x8192.Idx) : val_main_v19 (F := Ideal) i = margin := by rw [val_main_v19_apply]; rfl
theorem c28 (i : S8192x8192.Idx) : val_main_v28 (F := Ideal) i = half := by rw [val_main_v28_apply]; rfl
theorem c30 (i : S8192x8192.Idx) : val_main_v30 (F := Ideal) i = Ideal.ofBits .f32 0xC0000000#32 := by rw [val_main_v30_apply]; rfl
theorem c35 (i : S8192x8192.Idx) : val_main_v35 (F := Ideal) i = half := by rw [val_main_v35_apply]; rfl
theorem c37 (i : S8192x8192.Idx) : val_main_v37 (F := Ideal) i = Ideal.ofBits .f32 0x42200000#32 := by rw [val_main_v37_apply]; rfl
theorem c43 (i : S8192.Idx) : val_main_v43 (F := Ideal) i = Ideal.ofBits .f32 0x40000000#32 := by rw [val_main_v43_apply]; rfl
theorem c46 (i : S8192.Idx) : val_main_v46 (F := Ideal) i = Ideal.ofBits .f32 0x42200000#32 := by rw [val_main_v46_apply]; rfl
theorem k0 (i : S8192x8192.Idx) : val_main_call0_v1 (F := Ideal) i = posInf := by rw [val_main_call0_v1_apply]; rfl
theorem k1 (i : S8192x8192.Idx) : val_main_call1_v1 (F := Ideal) i = negInf := by rw [val_main_call1_v1_apply]; rfl
theorem k2 (i : S8192x8192.Idx) : val_main_call2_v1 (F := Ideal) i = zero := by rw [val_main_call2_v1_apply]; rfl
theorem k3 (i : S8192x8192.Idx) : val_main_call3_v1 (F := Ideal) i = zero := by rw [val_main_call3_v1_apply]; rfl
theorem k4 (i : S8192.Idx) : val_main_call4_v1 (F := Ideal) i = zero := by rw [val_main_call4_v1_apply]; rfl

/-! ## At a pair (r, c) -/

theorem same_at : val_main_v4 (F := Ideal) X1 (ix2 r c) = IntOp.cmpi .eq (X1 (ix1 r)) (X1 (ix1 c)) := by
  have e0 : idx_main_v0 (idx_main_v2 (ix2 r c)) = ix1 r := funext fun a => by match a with | ⟨0, _⟩ => rfl
  have e1 : idx_main_v1 (idx_main_v3 (ix2 r c)) = ix1 c := funext fun a => by match a with | ⟨0, _⟩ => rfl
  rw [val_main_v4_apply, val_main_v2_apply, val_main_v0_apply, val_main_v3_apply, val_main_v1_apply, e0, e1]

theorem pos_at : val_main_v7 (F := Ideal) X0 X1 (ix2 r c) = isPos (X1 (ix1 r)) (X1 (ix1 c)) (X0 (ix2 r c)) := by
  show IntOp.andi (val_main_v4 (F := Ideal) X1 (ix2 r c)) (Ideal.cmp .olt (X0 (ix2 r c)) (val_main_v5 (F := Ideal) (ix2 r c))) = _
  rw [same_at, c5]; rfl

theorem neg_at : val_main_v8 (F := Ideal) X1 (ix2 r c) = isNeg (X1 (ix1 r)) (X1 (ix1 c)) := by
  show ~~~(val_main_v4 (F := Ideal) X1 (ix2 r c)) = _
  rw [same_at, not_eq_xor]; rfl

theorem minTerm_at : val_main_v9 (F := Ideal) X0 X1 (ix2 r c) = minTerm (X1 (ix1 r)) (X1 (ix1 c)) (X0 (ix2 r c)) := by
  show Scalar.select (val_main_v7 (F := Ideal) X0 X1 (ix2 r c)) (X0 (ix2 r c)) (val_main_call0_v1 (F := Ideal) (ix2 r c)) = _
  rw [pos_at, k0]; rfl

theorem maxTerm_at : val_main_v11 (F := Ideal) X0 X1 (ix2 r c) = maxTerm (X1 (ix1 r)) (X1 (ix1 c)) (X0 (ix2 r c)) := by
  show Scalar.select (val_main_v8 (F := Ideal) X1 (ix2 r c)) (X0 (ix2 r c)) (val_main_call1_v1 (F := Ideal) (ix2 r c)) = _
  rw [neg_at, k1]; rfl

/-! ## The row reductions -/

theorem hR : S8192x8192.Reduces [1] S8192 := by decide

theorem lift_pair : hR.lift (ix1 r) c = ix2 r c :=
  funext fun a => Fin.ext (by match a with | ⟨0, _⟩ => rfl | ⟨1, _⟩ => rfl)

theorem rowMin_at :
    val_main_v10 (F := Ideal) X0 X1 (ix1 r) = rowMin (X1 (ix1 r)) (fun k => X0 (ix2 r k)) (fun k => X1 (ix1 k)) := by
  unfold val_main_v10 rowMin
  refine (Host.reduce_eq_fold_single FloatOps.minimumf _ _ Gen.reducesTo_S8192x8192_S8192_d1 hR Gen.h_S_ (ix1 r)).trans ?_
  show (Finset.univ : Finset (Fin 8192)).fold min posInf (fun k => val_main_v9 (F := Ideal) X0 X1 (hR.lift (ix1 r) k)) = _
  exact Finset.fold_congr fun k _ => (congrArg (val_main_v9 (F := Ideal) X0 X1) (lift_pair r k)).trans (minTerm_at X0 X1 r k)

theorem rowMax_at :
    val_main_v12 (F := Ideal) X0 X1 (ix1 r) = rowMax (X1 (ix1 r)) (fun k => X0 (ix2 r k)) (fun k => X1 (ix1 k)) := by
  unfold val_main_v12 rowMax
  refine (Host.reduce_eq_fold_single FloatOps.maximumf _ _ Gen.reducesTo_S8192x8192_S8192_d1 hR Gen.h_S_ (ix1 r)).trans ?_
  show (Finset.univ : Finset (Fin 8192)).fold max negInf (fun k => val_main_v11 (F := Ideal) X0 X1 (hR.lift (ix1 r) k)) = _
  exact Finset.fold_congr fun k _ => (congrArg (val_main_v11 (F := Ideal) X0 X1) (lift_pair r k)).trans (maxTerm_at X0 X1 r k)

/-! ## The thresholds broadcast back, and the selections -/

theorem thrMin_at :
    val_main_v16 (F := Ideal) X0 X1 (ix2 r c) = rowMin (X1 (ix1 r)) (fun k => X0 (ix2 r k)) (fun k => X1 (ix1 k)) := by
  have e : idx_main_v15 (idx_main_v16 (ix2 r c)) = ix1 r := funext fun a => by match a with | ⟨0, _⟩ => rfl
  rw [val_main_v16_apply, val_main_v15_apply, e, rowMin_at]

theorem thrMax_at :
    val_main_v22 (F := Ideal) X0 X1 (ix2 r c) = rowMax (X1 (ix1 r)) (fun k => X0 (ix2 r k)) (fun k => X1 (ix1 k)) := by
  have e : idx_main_v21 (idx_main_v22 (ix2 r c)) = ix1 r := funext fun a => by match a with | ⟨0, _⟩ => rfl
  rw [val_main_v22_apply, val_main_v21_apply, e, rowMax_at]

theorem selNeg_at :
    val_main_v18 (F := Ideal) X0 X1 (ix2 r c)
      = selNeg (X1 (ix1 r)) (X1 (ix1 c)) (X0 (ix2 r c)) (rowMin (X1 (ix1 r)) (fun k => X0 (ix2 r k)) (fun k => X1 (ix1 k))) := by
  show IntOp.andi (val_main_v8 (F := Ideal) X1 (ix2 r c))
      (Ideal.cmp .ogt (X0 (ix2 r c) + val_main_v13 (F := Ideal) (ix2 r c)) (val_main_v16 (F := Ideal) X0 X1 (ix2 r c))) = _
  rw [neg_at, c13, thrMin_at]; rfl

theorem selPos_at :
    val_main_v24 (F := Ideal) X0 X1 (ix2 r c)
      = selPos (X1 (ix1 r)) (X1 (ix1 c)) (X0 (ix2 r c)) (rowMax (X1 (ix1 r)) (fun k => X0 (ix2 r k)) (fun k => X1 (ix1 k))) := by
  rw [val_main_v24_apply, val_main_v23_apply, val_main_v20_apply, pos_at, c19, thrMax_at]; rfl

theorem posTerm_at :
    val_main_v33 (F := Ideal) X0 X1 (ix2 r c)
      = posTerm (X1 (ix1 r)) (X1 (ix1 c)) (X0 (ix2 r c)) (rowMax (X1 (ix1 r)) (fun k => X0 (ix2 r k)) (fun k => X1 (ix1 k))) := by
  show Scalar.select (val_main_v24 (F := Ideal) X0 X1 (ix2 r c))
      (Ideal.exp (val_main_v30 (F := Ideal) (ix2 r c) * (X0 (ix2 r c) - val_main_v28 (F := Ideal) (ix2 r c))))
      (val_main_call2_v1 (F := Ideal) (ix2 r c)) = _
  rw [selPos_at, c30, c28, k2]; rfl

theorem negTerm_at :
    val_main_v40 (F := Ideal) X0 X1 (ix2 r c)
      = negTerm (X1 (ix1 r)) (X1 (ix1 c)) (X0 (ix2 r c)) (rowMin (X1 (ix1 r)) (fun k => X0 (ix2 r k)) (fun k => X1 (ix1 k))) := by
  show Scalar.select (val_main_v18 (F := Ideal) X0 X1 (ix2 r c))
      (Ideal.exp (val_main_v37 (F := Ideal) (ix2 r c) * (X0 (ix2 r c) - val_main_v35 (F := Ideal) (ix2 r c))))
      (val_main_call3_v1 (F := Ideal) (ix2 r c)) = _
  rw [selNeg_at, c37, c35, k3]; rfl

/-! ## The sums and the "any" tests of a row -/

theorem posSum_at :
    val_main_v34 (F := Ideal) X0 X1 (ix1 r) = rowPosSum (X1 (ix1 r)) (fun k => X0 (ix2 r k)) (fun k => X1 (ix1 k)) := by
  rw [val_main_v34_apply]
  show zero + _ = _
  rw [zero_eq, zero_add]
  unfold rowPosSum
  refine Finset.sum_congr rfl fun k _ => ?_
  have e : idx_main_v34 (ix1 r) k = ix2 r k := funext fun a => Fin.ext (by match a with | ⟨0, _⟩ => rfl | ⟨1, _⟩ => rfl)
  rw [e, posTerm_at]

theorem negSum_at :
    val_main_v41 (F := Ideal) X0 X1 (ix1 r) = rowNegSum (X1 (ix1 r)) (fun k => X0 (ix2 r k)) (fun k => X1 (ix1 k)) := by
  rw [val_main_v41_apply]
  show zero + _ = _
  rw [zero_eq, zero_add]
  unfold rowNegSum
  refine Finset.sum_congr rfl fun k _ => ?_
  have e : idx_main_v41 (ix1 r) k = ix2 r k := funext fun a => Fin.ext (by match a with | ⟨0, _⟩ => rfl | ⟨1, _⟩ => rfl)
  rw [e, negTerm_at]

theorem anyNeg_at :
    val_main_v25 (F := Ideal) X0 X1 (ix1 r)
      = Ideal.cmp .ogt (rowHasNeg (X1 (ix1 r)) (fun k => X0 (ix2 r k)) (fun k => X1 (ix1 k))) half := by
  unfold val_main_v25 rowHasNeg
  rw [any_mark]
  refine (Host.reduce_eq_fold_single IntOp.ori _ _ Gen.reducesTo_S8192x8192_S8192_d1 hR Gen.h_S_ (ix1 r)).trans ?_
  show (Finset.univ : Finset (Fin 8192)).fold IntOp.ori 0#1 (fun k => val_main_v18 (F := Ideal) X0 X1 (hR.lift (ix1 r) k)) = _
  exact Finset.fold_congr fun k _ => (congrArg (val_main_v18 (F := Ideal) X0 X1) (lift_pair r k)).trans (selNeg_at X0 X1 r k)

theorem anyPos_at :
    val_main_v26 (F := Ideal) X0 X1 (ix1 r)
      = Ideal.cmp .ogt (rowHasPos (X1 (ix1 r)) (fun k => X0 (ix2 r k)) (fun k => X1 (ix1 k))) half := by
  unfold val_main_v26 rowHasPos
  rw [any_mark]
  refine (Host.reduce_eq_fold_single IntOp.ori _ _ Gen.reducesTo_S8192x8192_S8192_d1 hR Gen.h_S_ (ix1 r)).trans ?_
  show (Finset.univ : Finset (Fin 8192)).fold IntOp.ori 0#1 (fun k => val_main_v24 (F := Ideal) X0 X1 (hR.lift (ix1 r) k)) = _
  exact Finset.fold_congr fun k _ => (congrArg (val_main_v24 (F := Ideal) X0 X1) (lift_pair r k)).trans (selPos_at X0 X1 r k)

/-! ## The row's loss and the mean -/

theorem loss_at : val_main_v49 (F := Ideal) X0 X1 (ix1 r) = lossOfRow X0 X1 r := by
  show Scalar.select (IntOp.andi (val_main_v25 (F := Ideal) X0 X1 (ix1 r)) (val_main_v26 (F := Ideal) X0 X1 (ix1 r)))
      (Ideal.div (Ideal.log1p (val_main_v34 (F := Ideal) X0 X1 (ix1 r))) (val_main_v43 (F := Ideal) (ix1 r))
        + Ideal.div (Ideal.log1p (val_main_v41 (F := Ideal) X0 X1 (ix1 r))) (val_main_v46 (F := Ideal) (ix1 r)))
      (val_main_call4_v1 (F := Ideal) (ix1 r)) = _
  rw [anyNeg_at, anyPos_at, posSum_at, negSum_at, c43, c46, k4, andi_comm]
  rfl

/-- The rows of the label vector's index type are the 8192 rows. -/
def rowEquiv : S8192.Idx ≃ Fin 8192 where
  toFun j := ⟨(j 0).val, (j 0).isLt⟩
  invFun r := ix1 r
  left_inv j := funext fun a => by match a with | ⟨0, _⟩ => rfl
  right_inv r := rfl

/-- THE REFERENCE'S RESULT: the mean of the row losses. -/
theorem result_eq : val_main_v51 (F := Ideal) X0 X1 = fun _ => meanLoss X0 X1 := by
  funext i
  unfold meanLoss
  show Ideal.div (val_main_v50 (F := Ideal) X0 X1 i) (val_main_cst_19 (F := Ideal) i) = _
  rw [val_main_v50_apply]
  show Ideal.div (zero + _) (Ideal.ofBits .f32 0x46000000#32) = _
  refine congrArg (Ideal.div · _) (congrArg (zero + ·) ?_)
  rw [← Equiv.sum_comp rowEquiv.symm]
  refine Finset.sum_congr rfl fun r _ => ?_
  exact loss_at X0 X1 r

end Cert.ReferenceIdeal.RowVal

end
-- ==== Proof.lean ====
/-
  The certificate: a multi-similarity mining loss computed stripe by stripe equals its whole-matrix reference over the
  extended reals.

  For every row of an 8192 x 8192 similarity matrix the hardest positive and hardest negative are mined, the pairs
  within a margin of them are selected, and the row's loss is formed from the two sums over the selected pairs; the
  result is the mean of the row losses. The kernel does this for 256 rows per grid point, sweeping the 8192 columns
  twice in 8 chunks of 1024 with running minima, maxima, sums and marks; the reference forms all 8192² pairs and reduces
  along rows. Minima, maxima and sums of extended reals do not depend on the grouping of their terms (addition on the
  extended reals is commutative and associative, infinities included, so finiteness of the inputs is never used), and
  "the greatest 0/1 mark exceeds 1/2" is "some pair is selected": hence both results are the same mean of row losses.
  The three frames are the generated runs; nothing was rewritten by the idealization, so it is preserved trivially.
-/
import proofs.«179485_j52381421142559_2_alg».proof.Defs
import proofs.«179485_j52381421142559_2_alg».proof.Proof.Gen.Kernel
import proofs.«179485_j52381421142559_2_alg».proof.Proof.Gen.Kernel.Frame
import proofs.«179485_j52381421142559_2_alg».proof.Proof.Gen.KernelIdeal
import proofs.«179485_j52381421142559_2_alg».proof.Proof.Gen.KernelIdeal.Frame
import proofs.«179485_j52381421142559_2_alg».proof.Proof.Gen.ReferenceIdeal
import proofs.«179485_j52381421142559_2_alg».proof.Proof.Gen.Pre_finite_inputs
import proofs.«179485_j52381421142559_2_alg».proof.Proof.KMean
import proofs.«179485_j52381421142559_2_alg».proof.Proof.RefSide
import Idealize.ShloMosaic.Adequacy
import Idealize.ShloMosaic.Init

noncomputable section

namespace Cert.Proof

open Idealize.ShloMosaic Idealize.SL.Sem Cert.Mining

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end at the mean of the row losses of the arguments. -/
theorem algebraic : Cert.algebraic_KernelIdeal_ReferenceIdeal := by
  intro m ρ m' ρ' _ hagree
  refine ⟨fun c => fun _ => meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.KernelIdeal.Whole.run m ρ)
    exact Cert.KernelIdeal.Whole.meanOf_lossCol _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, Cert.ReferenceIdeal.RowVal.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
